-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2048 : Shape := ⟨2, ![4096, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S2048 .f32) (main_arg8 : FVec F S2048x2048 .f32) (main_arg9 : FVec F S2048 .f32) (main_arg10 : FVec F S2048 .f32) (main_arg11 : FVec F S2048 .f32) (main_arg12 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S512x2048 .f32) (main_arg5 : FVec F S2048x2048 .f32) (main_arg6 : FVec F S2048 .f32) (main_arg7 : FVec F S2048 .f32) (main_arg8 : FVec F S2048x2048 .f32) (main_arg9 : FVec F S2048 .f32) (main_arg10 : FVec F S2048 .f32) (main_arg11 : FVec F S2048 .f32) (main_arg12 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x512 .f32) (main_arg1 : FVec F S4096x2048 .f32) (main_arg2 : FVec F S4096x2048 .f32) (main_arg3 : FVec F S4096x2048 .f32) (main_arg4 : FVec F S512x2048 .f32) (main_arg5 : FVec F S2048x2048 .f32) (main_arg6 : FVec F S2048 .f32) (main_arg7 : FVec F S2048 .f32) (main_arg8 : FVec F S2048x2048 .f32) (main_arg9 : FVec F S2048 .f32) (main_arg10 : FVec F S2048 .f32) (main_arg11 : FVec F S2048 .f32) (main_arg12 : FVec F S2048 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_v13 main_v16
-- ==== Kernel.lean ====
abbrev S4096x512 : Shape := ⟨2, ![4096, 512]⟩
abbrev S4096x2048 : Shape := ⟨2, ![4096, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S256x2048 : Shape := ⟨2, ![256, 2048]⟩
abbrev S256x1 : Shape := ⟨2, ![256, 1]⟩
abbrev S1x2048 : Shape := ⟨2, ![1, 2048]⟩
abbrev S8x2048 : Shape := ⟨2, ![8, 2048]⟩
abbrev S256x512 : Shape := ⟨2, ![256, 512]⟩

abbrev nBuf : Space → Nat
  | .hbm => 33
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S512x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .bf16⟩
  | .hbm, ⟨17, _⟩ => ⟨S2048x1, .f32⟩
  | .hbm, ⟨18, _⟩ => ⟨S2048x2048, .bf16⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S8x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S256x2048, .bf16⟩
  | .local _ .vmem, ⟨7, _⟩ => ⟨S256x2048, .bf16⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S512x2048, .bf16⟩
  | .local _ .vmem, ⟨17, _⟩ => ⟨S2048x2048, .bf16⟩
  | .local _ .vmem, ⟨18, _⟩ => ⟨S8x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S512x2048 : S_.BroadcastsInDim S512x2048 (![] : Fin 0 → Fin S512x2048.rank)
  bitsLt_bf16_f32 : FTy.bits .bf16 < FTy.bits .f32
  shapeCasts_S2048_S2048x1 : S2048.ShapeCasts S2048x1
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  packedbf16_S256x2048_S256x2048_0_0 : (Rect.unit (s := S256x2048) ![0, 0] S256x2048.size inb_S256x2048_S256x2048_0_0).PackedRows (EltTy.packing .bf16)
  bcast_S_S2048 : S_.BroadcastsInDim S2048 (![] : Fin 0 → Fin S2048.rank)
  bcast_S2048_S1x2048_1 : S2048.BroadcastsInDim S1x2048 (![1] : Fin 1 → Fin S1x2048.rank)
  concatenates_S1x2048_S1x2048_S1x2048_S1x2048_S1x2048_S1x2048_S1x2048_S1x2048_S8x2048_d0 : Shape.Concatenates [S1x2048, S1x2048, S1x2048, S1x2048, S1x2048, S1x2048, S1x2048, S1x2048] S8x2048 0
  inb_S8x2048_S1x2048_0_0 : ∀ a, (![0, 0] : Fin 2 → Nat) a + S1x2048.size a ≤ S8x2048.size a
  h_S1x2048 : 0 < S1x2048.numel
  shapeCasts_S1x2048_S1x2048 : S1x2048.ShapeCasts S1x2048
  inb_S8x2048_S1x2048_1_0 : ∀ a, (![1, 0] : Fin 2 → Nat) a + S1x2048.size a ≤ S8x2048.size a
  inb_S8x2048_S1x2048_2_0 : ∀ a, (![2, 0] : Fin 2 → Nat) a + S1x2048.size a ≤ S8x2048.size a
  inb_S8x2048_S1x2048_3_0 : ∀ a, (![3, 0] : Fin 2 → Nat) a + S1x2048.size a ≤ S8x2048.size a
  inb_S8x2048_S1x2048_4_0 : ∀ a, (![4, 0] : Fin 2 → Nat) a + S1x2048.size a ≤ S8x2048.size a
  broadcasts_S1x2048_S256x2048 : S1x2048.Broadcasts S256x2048
  inb_S256x512_S256x512_0_0 : ∀ a, (![0, 0] : Fin 2 → Nat) a + S256x512.size a ≤ S256x512.size a
  h_S256x512 : 0 < S256x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x512_S512x2048_S256x2048_1_0_0_1_n_n_wf : DotDims.WF S256x512 S512x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .f32 = 32 ∨ (Rect.block (s := S4096x512) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .f32 = 32 ∨ (Rect.block (s := S4096x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .f32 = 32 ∨ (Rect.block (s := S4096x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .f32 = 32 ∨ (Rect.block (s := S4096x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S512x2048.size a
  hwx1_4 : ∀ i : grid1.Coords, EltTy.bits .bf16 = 32 ∨ (Rect.block (s := S512x2048) S512x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x2048.size a ≤ S8x2048.size a
  hwx1_6 : ∀ i : grid1.Coords, EltTy.bits .f32 = 32 ∨ (Rect.block (s := S8x2048) S8x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S4096x2048.size a
  hwx1_7 : ∀ i : grid1.Coords, EltTy.bits .f32 = 32 ∨ (Rect.block (s := S4096x2048) S256x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x2048.size a ≤ S4096x2048.size a
  hwx1_8 : ∀ i : grid1.Coords, EltTy.bits .f32 = 32 ∨ (Rect.block (s := S4096x2048) S256x2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x2048.size a ≤ S4096x2048.size a
  hwx1_9 : ∀ i : grid1.Coords, EltTy.bits .f32 = 32 ∨ (Rect.block (s := S4096x2048) S256x2048.size (cc1_transform_9 i) (hinb1_9 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg5) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S8x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14_0) S256x2048.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v14_1) S256x2048.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v14_2) S256x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x2048 : Shape := ⟨2, ![4096, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S512x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S2048x1, .f32⟩
  | .hbm, ⟨69, _⟩ => ⟨S_, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S512x2048, .f32⟩
  | .hbm, ⟨77, _⟩ => ⟨S512x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S1x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096x2048, .f32⟩
  | .hbm, ⟨86, _⟩ => ⟨S4096x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v33 : Ref sig .tc := ⟨.hbm, 57, rfl⟩
abbrev main_cst_5 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call2_cst : Ref sig .tc := ⟨.hbm, 69, rfl⟩
abbrev main_call2_v0 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call3_cst : Ref sig .tc := ⟨.hbm, 75, rfl⟩
abbrev main_call3_v0 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_7 : Ref sig .tc := ⟨.hbm, 84, rfl⟩
abbrev main_v49 : Ref sig .tc := ⟨.hbm, 85, rfl⟩
abbrev main_v50 : Ref sig .tc := ⟨.hbm, 86, rfl⟩
abbrev main_call4_cst : Ref sig .tc := ⟨.hbm, 87, rfl⟩
abbrev main_call4_v0 : Ref sig .tc := ⟨.hbm, 88, rfl⟩
abbrev main_v51 : Ref sig .tc := ⟨.hbm, 89, rfl⟩
abbrev main_cst_8 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x2048 : S_.BroadcastsInDim S2048x2048 (![] : Fin 0 → Fin S2048x2048.rank)
  bcast_S2048x1_S2048x2048_0_1 : S2048x1.BroadcastsInDim S2048x2048 (![0, 1] : Fin 2 → Fin S2048x2048.rank)
  bcast_S_S512x2048 : S_.BroadcastsInDim S512x2048 (![] : Fin 0 → Fin S512x2048.rank)
  dot_S4096x512_S512x2048_S4096x2048_1_0_0_1_n_n_wf : DotDims.WF S4096x512 S512x2048 S4096x2048 [1] [0] [0] [1] [] []
  dot_S4096x2048_S2048x2048_S4096x2048_1_0_0_1_n_n_wf : DotDims.WF S4096x2048 S2048x2048 S4096x2048 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Kernel.Region0.lean ====
/-
  Region 0 of the program (the preparation of the recurrent weights, eight row blocks of 256): each window's block,
  the one value the body stores, the body's triple, and the obligation the launch asks for at every grid point.
  Stated for any float instance.
-/
import proofs.«151164_j20787641712912_2_alg».proof.Proof.Gen.Kernel.Launch
import proofs.«151164_j20787641712912_2_alg».proof.Proof.Gen.Kernel.Skeleton
import proofs.«151164_j20787641712912_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the windows' blocks, what the body stores, its triple, and the obligation at every grid point.
    Everything here is stated at a parameter `V`: the contents of the core's buffers when the region is entered. -/

section Region0

variable (V : (c : Dev nD) → (b : Ref sig .tc) → Buf (Elt F) ((c : Thread nD τ).loc b))

/-- Window `w`'s block at grid point `t`: the part of its array (as the region finds it) that the point stages. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or an earlier one did
    (the block index has not moved since), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or an earlier one did
    (the block index has not moved since), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or an earlier one did
    (the block index has not moved since), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

abbrev r0_A : Rect S256x2048 := Rect.unit (s := S256x2048) ![0, 0] S256x2048.size inb_S256x2048_S256x2048_0_0
abbrev r0_B : Rect S256x1 := Rect.unit (s := S256x1) ![0, 0] S256x1.size inb_S256x1_S256x1_0_0

/-! ## What the body leaves in each output window's buffer: its one store, over the values it loaded -/

/-- The prepared block of recurrent weights: the mask times the sign times the rectified weight, entry by entry. -/
def out0_3 (x0 : Vec F S256x2048 .f32) (x1 : Vec F S256x2048 .f32) (x2 : Vec F S256x1 .f32) : Vec F S256x2048 .bf16 :=
  View.canon [⟨r0_A, k0_pay1 (View.ld x0 r0_A) (View.ld x1 r0_A) (View.ld x2 r0_B)⟩]

/-- The store is of the whole buffer, so it covers it. -/
theorem cover0_3 (p0 : Vec F S256x2048 .bf16) (y : S256x2048.Idx) :
    ∃ pc ∈ ([⟨r0_A, p0⟩] : List (View.Piece (Elt F) S256x2048 .bf16)), y ∈ pc.1.set :=
  View.cover_of_tiled [⟨r0_A, p0⟩] S256x2048.size (by rfl) y

/-! ## The body's triple -/

set_option maxHeartbeats 4000000 in
/-- The kernel body on whole staging buffers, the inputs' holding `x_w` and the outputs' anything, runs without a fault to
    the continuation with the inputs' buffers as they were and each output's holding what its store wrote. -/
theorem sound_kernel0 (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S256x2048 .bf16) (harg4 : arg4.IsWhole)
    (x0 : Vec F S256x2048 .f32) (x1 : Vec F S256x2048 .f32) (x2 : Vec F S256x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__prep_eff_rnn_kernel i arg1 harg1 arg2 harg2 arg3 harg3 arg4 harg4) K := by
  simp only [cc0__prep_eff_rnn_kernel_eq_skeleton]; unfold cc0__prep_eff_rnn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer still at its block and each
    output's at what the store wrote from the input blocks; the invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation at a grid point -/

/-- What the body is handed at point `t`: the invariant, the core's dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- At any point the inputs' buffers hold their blocks, so the body's triple applies; the invariant and the dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks for, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.Kernel.Region1.lean ====
/-
  Region 1 of the program (the cell itself, sixteen batch blocks of 256 rows): each window's block, the three values the
  body stores (new activity, new depression state, new facilitation state), the body's triple, and the obligation the
  launch asks for at every grid point. Stated for any float instance.
-/
import proofs.«151164_j20787641712912_2_alg».proof.Proof.Gen.Kernel.Launch
import proofs.«151164_j20787641712912_2_alg».proof.Proof.Gen.Kernel.Skeleton
import proofs.«151164_j20787641712912_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the windows' blocks, what the body stores, its triple, and the obligation at every grid point.
    Everything here is stated at a parameter `V`: the contents of the core's buffers when the region is entered. -/

section Region1

variable (V : (c : Dev nD) → (b : Ref sig .tc) → Buf (Elt F) ((c : Thread nD τ).loc b))

/-- Window `w`'s block at grid point `t`: the part of its array (as the region finds it) that the point stages. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one did
    (the block index has not moved since), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through -/

abbrev r1_A : Rect S256x2048 := Rect.unit (s := S256x2048) ![0, 0] S256x2048.size inb_S256x2048_S256x2048_0_0
abbrev r1_I : Rect S256x512 := Rect.unit (s := S256x512) ![0, 0] S256x512.size inb_S256x512_S256x512_0_0
abbrev r1_W : Rect S512x2048 := Rect.unit (s := S512x2048) ![0, 0] S512x2048.size inb_S512x2048_S512x2048_0_0
abbrev r1_H : Rect S2048x2048 := Rect.unit (s := S2048x2048) ![0, 0] S2048x2048.size inb_S2048x2048_S2048x2048_0_0
abbrev r1_P0 : Rect S8x2048 := Rect.unit (s := S8x2048) ![0, 0] S1x2048.size inb_S8x2048_S1x2048_0_0
abbrev r1_P1 : Rect S8x2048 := Rect.unit (s := S8x2048) ![1, 0] S1x2048.size inb_S8x2048_S1x2048_1_0
abbrev r1_P2 : Rect S8x2048 := Rect.unit (s := S8x2048) ![2, 0] S1x2048.size inb_S8x2048_S1x2048_2_0
abbrev r1_P3 : Rect S8x2048 := Rect.unit (s := S8x2048) ![3, 0] S1x2048.size inb_S8x2048_S1x2048_3_0
abbrev r1_P4 : Rect S8x2048 := Rect.unit (s := S8x2048) ![4, 0] S1x2048.size inb_S8x2048_S1x2048_4_0

/-! ## What the body leaves in each output window's buffer: its one store, over the values it loaded -/

/-- The new activity block: the blend of the old activity with the rectified drive (input product, recurrent product, bias). -/
def out1_7 (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) : Vec F S256x2048 .f32 :=
  View.canon [⟨r1_A, k1_pay3 (View.ld x1 r1_A) (View.ld x3 r1_A) (k1_pay4 (View.ld x6 r1_P0)) (k1_pay6 (View.ld x1 r1_A) (View.ld x2 r1_A) (View.ld x3 r1_A) (View.ld x6 r1_P2) (View.ld x6 r1_P4)) (k1_pay7 (View.ld x1 r1_A) (View.ld x3 r1_A) (View.ld x6 r1_P1) (View.ld x6 r1_P3) (View.ld x6 r1_P4)) (View.ld x0 r1_I) (View.ld x4 r1_W) (View.ld x5 r1_H)⟩]

/-- The store is of the whole buffer, so it covers it. -/
theorem cover1_7 (p0 : Vec F S256x2048 .f32) (y : S256x2048.Idx) :
    ∃ pc ∈ ([⟨r1_A, p0⟩] : List (View.Piece (Elt F) S256x2048 .f32)), y ∈ pc.1.set :=
  View.cover_of_tiled [⟨r1_A, p0⟩] S256x2048.size (by rfl) y

/-- The new depression-state block, clamped into [0, 1]. -/
def out1_8 (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) : Vec F S256x2048 .f32 :=
  View.canon [⟨r1_A, k1_pay1 (k1_pay6 (View.ld x1 r1_A) (View.ld x2 r1_A) (View.ld x3 r1_A) (View.ld x6 r1_P2) (View.ld x6 r1_P4))⟩]

/-- The store is of the whole buffer, so it covers it. -/
theorem cover1_8 (p0 : Vec F S256x2048 .f32) (y : S256x2048.Idx) :
    ∃ pc ∈ ([⟨r1_A, p0⟩] : List (View.Piece (Elt F) S256x2048 .f32)), y ∈ pc.1.set :=
  View.cover_of_tiled [⟨r1_A, p0⟩] S256x2048.size (by rfl) y

/-- The new facilitation-state block, clamped into [0, 1]. -/
def out1_9 (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) : Vec F S256x2048 .f32 :=
  View.canon [⟨r1_A, k1_pay2 (View.ld x3 r1_A) (k1_pay7 (View.ld x1 r1_A) (View.ld x3 r1_A) (View.ld x6 r1_P1) (View.ld x6 r1_P3) (View.ld x6 r1_P4))⟩]

/-- The store is of the whole buffer, so it covers it. -/
theorem cover1_9 (p0 : Vec F S256x2048 .f32) (y : S256x2048.Idx) :
    ∃ pc ∈ ([⟨r1_A, p0⟩] : List (View.Piece (Elt F) S256x2048 .f32)), y ∈ pc.1.set :=
  View.cover_of_tiled [⟨r1_A, p0⟩] S256x2048.size (by rfl) y

/-! ## The body's triple -/

set_option maxHeartbeats 4000000 in
/-- The kernel body on whole staging buffers, the inputs' holding `x_w` and the outputs' anything, runs without a fault to
    the continuation with the inputs' buffers as they were and each output's holding what its store wrote. -/
theorem sound_kernel1 (c : Dev nD) (E : Set ℕ) (i : grid1.Coords) (arg1 : Memref sig .tc .vmem S256x512 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S512x2048 .bf16) (harg5 : arg5.IsWhole) (arg6 : Memref sig .tc .vmem S2048x2048 .bf16) (harg6 : arg6.IsWhole) (arg7 : Memref sig .tc .vmem S8x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole)
    (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__cell_kernel i arg1 harg1 arg2 harg2 arg3 harg3 arg4 harg4 arg5 harg5 arg6 harg6 arg7 harg7 arg8 harg8 arg9 harg9 arg10 harg10) K := by
  simp only [cc1__cell_kernel_eq_skeleton]; unfold cc1__cell_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The region's proof data -/

/-- The arrays as the region finds them; after the body at point `t` each input's buffer still at its block and each
    output's at what the store wrote from the input blocks; the invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The obligation at a grid point -/

/-- What the body is handed at point `t`: the invariant, the core's dues, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- At any point the inputs' buffers hold their blocks, so the body's triple applies; the invariant and the dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the launch asks for, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Frame

end
-- ==== Proof.Kernel.Run.lean ====
/-
  The whole program as a run: the contents of the core's buffers followed through the five items of the entry function
  (two stretches of host operations, the weight-preparation region, a third stretch that packs the per-unit parameters,
  the cell region), each region entered and left through its arrays, and the launch theorem for a list of such items.
  The result reads EVERY unscoped buffer at the end of the run: an argument walks back, item by item, to the launch
  memory (nothing writes it); a region's output is what its write-backs left. Stated for any float instance.
-/
import proofs.«151164_j20787641712912_2_alg».proof.Proof.Gen.Kernel.Launch
import proofs.«151164_j20787641712912_2_alg».proof.Proof.Gen.Kernel.Skeleton
import proofs.«151164_j20787641712912_2_alg».proof.Proof.Gen.Kernel.Points
import proofs.«151164_j20787641712912_2_alg».proof.Proof.Gen.Kernel.Regions
import proofs.«151164_j20787641712912_2_alg».proof.Proof.Kernel.Region0
import proofs.«151164_j20787641712912_2_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- At launch. -/
abbrev W0 : Dev nD → Valuation τ sig (Elt F) := fun c b => (s₀ m ρ).mem ((c : Dev nD), b)
/-- After the rectification of the input weights. -/
abbrev W1 : Dev nD → Valuation τ sig (Elt F) := fun c => StableHlo.after hostOps0 (W0 m ρ c)
/-- After their change of format and the reshape of the sign vector into a column: region 0's entry. -/
abbrev W2 : Dev nD → Valuation τ sig (Elt F) := fun c => StableHlo.after hostOps0_1 (W1 m ρ c)
abbrev U2 : (c : Dev nD) → (b : Ref sig .tc) → Buf (Elt F) ((c : Thread nD τ).loc b) := fun c b => W2 m ρ c b

/-- After region 0: its arrays at what the pipeline leaves (an input as entered, an output with every point's write-back
    folded in), every other buffer as entered. -/
def W3 (c : Dev nD) : Valuation τ sig (Elt F) :=
  Pipeline.withArrays spec0 c (W2 m ρ c) fun w => (dat0 (U2 m ρ) c).arrAt w cfg0.N
theorem W3_arr (c : Dev nD) (w : Fin cfg0.W) :
    W3 m ρ c (Proc.devRef .tc (Pipeline.arrRef spec0 w)) = (dat0 (U2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- The same contents read at the core's own references. -/
abbrev U3 : (c : Dev nD) → (b : Ref sig .tc) → Buf (Elt F) ((c : Thread nD τ).loc b) := fun c b => W3 m ρ c b
theorem hF0 (c : Dev nD) (w : Fin cfg0.W) : (dat0 (U2 m ρ) c).arrAt w cfg0.N = U3 m ρ c (Pipeline.arrRef spec0 w) :=
  (W3_arr m ρ c w).symm
theorem hrest0 (c : Dev nD) : ∀ b, b ∉ Finset.univ.image (Pipeline.arrRef spec0) → U3 m ρ c b = U2 m ρ c b :=
  fun b hb => W3_of_ne m ρ c b fun w e => hb (Finset.mem_image.mpr ⟨w, Finset.mem_univ _, e⟩)

/-- After the packing of the per-unit parameters into one eight-row array: region 1's entry. -/
abbrev W4 : Dev nD → Valuation τ sig (Elt F) := fun c => StableHlo.after hostOps1 (W3 m ρ c)
abbrev U4 : (c : Dev nD) → (b : Ref sig .tc) → Buf (Elt F) ((c : Thread nD τ).loc b) := fun c b => W4 m ρ c b

/-- After region 1: its arrays at what the pipeline leaves (an input as entered, an output with every point's write-back
    folded in), every other buffer as entered. -/
def W5 (c : Dev nD) : Valuation τ sig (Elt F) :=
  Pipeline.withArrays spec1 c (W4 m ρ c) fun w => (dat1 (U4 m ρ) c).arrAt w cfg1.N
theorem W5_arr (c : Dev nD) (w : Fin cfg1.W) :
    W5 m ρ c (Proc.devRef .tc (Pipeline.arrRef spec1 w)) = (dat1 (U4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same contents read at the core's own references. -/
abbrev U5 : (c : Dev nD) → (b : Ref sig .tc) → Buf (Elt F) ((c : Thread nD τ).loc b) := fun c b => W5 m ρ c b
theorem hF1 (c : Dev nD) (w : Fin cfg1.W) : (dat1 (U4 m ρ) c).arrAt w cfg1.N = U5 m ρ c (Pipeline.arrRef spec1 w) :=
  (W5_arr m ρ c w).symm
theorem hrest1 (c : Dev nD) : ∀ b, b ∉ Finset.univ.image (Pipeline.arrRef spec1) → U5 m ρ c b = U4 m ρ c b :=
  fun b hb => W5_of_ne m ρ c b fun w e => hb (Finset.mem_image.mpr ⟨w, Finset.mem_univ _, e⟩)

/-! ## The arguments end as launched -/

/-- `main_arg0` ends as launched: no host operation writes it and a region only reads it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat1 (U4 m ρ) c).arrAt_in 0 rfl _).trans (A_eq1 (U4 m ρ) c 0))
    _ = W3 m ρ c (Proc.devRef .tc main_arg0) := StableHlo.after_of_writes_sub hostOps1 _ hostOps1_writes (by decide : main_arg0 ∉ hostOps1_W)
    _ = W2 m ρ c (Proc.devRef .tc main_arg0) := W3_of_ne m ρ c main_arg0 (by decide)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

/-- `main_arg1` ends as launched: no host operation writes it and a region only reads it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 1).trans (((dat1 (U4 m ρ) c).arrAt_in 1 rfl _).trans (A_eq1 (U4 m ρ) c 1))
    _ = W3 m ρ c (Proc.devRef .tc main_arg1) := StableHlo.after_of_writes_sub hostOps1 _ hostOps1_writes (by decide : main_arg1 ∉ hostOps1_W)
    _ = W2 m ρ c (Proc.devRef .tc main_arg1) := W3_of_ne m ρ c main_arg1 (by decide)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

/-- `main_arg2` ends as launched: no host operation writes it and a region only reads it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 2).trans (((dat1 (U4 m ρ) c).arrAt_in 2 rfl _).trans (A_eq1 (U4 m ρ) c 2))
    _ = W3 m ρ c (Proc.devRef .tc main_arg2) := StableHlo.after_of_writes_sub hostOps1 _ hostOps1_writes (by decide : main_arg2 ∉ hostOps1_W)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

/-- `main_arg3` ends as launched: no host operation writes it and a region only reads it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 3).trans (((dat1 (U4 m ρ) c).arrAt_in 3 rfl _).trans (A_eq1 (U4 m ρ) c 3))
    _ = W3 m ρ c (Proc.devRef .tc main_arg3) := StableHlo.after_of_writes_sub hostOps1 _ hostOps1_writes (by decide : main_arg3 ∉ hostOps1_W)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

/-- `main_arg4` ends as launched: no host operation writes it and a region only reads it. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps1 _ hostOps1_writes (by decide : main_arg4 ∉ hostOps1_W)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

/-- `main_arg5` ends as launched: no host operation writes it and a region only reads it. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps1 _ hostOps1_writes (by decide : main_arg5 ∉ hostOps1_W)
    _ = W2 m ρ c (Proc.devRef .tc main_arg5) := (W3_arr m ρ c 0).trans (((dat0 (U2 m ρ) c).arrAt_in 0 rfl _).trans (A_eq0 (U2 m ρ) c 0))
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-- `main_arg6` ends as launched: no host operation writes it and a region only reads it. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_writes_sub hostOps1 _ hostOps1_writes (by decide : main_arg6 ∉ hostOps1_W)
    _ = W2 m ρ c (Proc.devRef .tc main_arg6) := W3_of_ne m ρ c main_arg6 (by decide)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

/-- `main_arg7` ends as launched: no host operation writes it and a region only reads it. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_writes_sub hostOps1 _ hostOps1_writes (by decide : main_arg7 ∉ hostOps1_W)
    _ = W2 m ρ c (Proc.devRef .tc main_arg7) := W3_of_ne m ρ c main_arg7 (by decide)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

/-- `main_arg8` ends as launched: no host operation writes it and a region only reads it. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_writes_sub hostOps1 _ hostOps1_writes (by decide : main_arg8 ∉ hostOps1_W)
    _ = W2 m ρ c (Proc.devRef .tc main_arg8) := (W3_arr m ρ c 1).trans (((dat0 (U2 m ρ) c).arrAt_in 1 rfl _).trans (A_eq0 (U2 m ρ) c 1))
    _ = W1 m ρ c (Proc.devRef .tc main_arg8) := StableHlo.after_of_writes_sub hostOps0_1 _ hostOps0_1_writes (by decide : main_arg8 ∉ hostOps0_1_W)
    _ = W0 m ρ c (Proc.devRef .tc main_arg8) := StableHlo.after_of_writes_sub hostOps0 _ hostOps0_writes (by decide : main_arg8 ∉ hostOps0_W)
    _ = m ((c : Thread nD τ).loc main_arg8) := rfl

/-- `main_arg9` ends as launched: no host operation writes it and a region only reads it. -/
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_writes_sub hostOps1 _ hostOps1_writes (by decide : main_arg9 ∉ hostOps1_W)
    _ = W2 m ρ c (Proc.devRef .tc main_arg9) := W3_of_ne m ρ c main_arg9 (by decide)
    _ = W1 m ρ c (Proc.devRef .tc main_arg9) := StableHlo.after_of_writes_sub hostOps0_1 _ hostOps0_1_writes (by decide : main_arg9 ∉ hostOps0_1_W)
    _ = W0 m ρ c (Proc.devRef .tc main_arg9) := StableHlo.after_of_writes_sub hostOps0 _ hostOps0_writes (by decide : main_arg9 ∉ hostOps0_W)
    _ = m ((c : Thread nD τ).loc main_arg9) := rfl

/-- `main_arg10` ends as launched: no host operation writes it and a region only reads it. -/
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_writes_sub hostOps1 _ hostOps1_writes (by decide : main_arg10 ∉ hostOps1_W)
    _ = W2 m ρ c (Proc.devRef .tc main_arg10) := W3_of_ne m ρ c main_arg10 (by decide)
    _ = W1 m ρ c (Proc.devRef .tc main_arg10) := StableHlo.after_of_writes_sub hostOps0_1 _ hostOps0_1_writes (by decide : main_arg10 ∉ hostOps0_1_W)
    _ = W0 m ρ c (Proc.devRef .tc main_arg10) := StableHlo.after_of_writes_sub hostOps0 _ hostOps0_writes (by decide : main_arg10 ∉ hostOps0_W)
    _ = m ((c : Thread nD τ).loc main_arg10) := rfl

/-- `main_arg11` ends as launched: no host operation writes it and a region only reads it. -/
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := StableHlo.after_of_writes_sub hostOps1 _ hostOps1_writes (by decide : main_arg11 ∉ hostOps1_W)
    _ = W2 m ρ c (Proc.devRef .tc main_arg11) := W3_of_ne m ρ c main_arg11 (by decide)
    _ = W1 m ρ c (Proc.devRef .tc main_arg11) := StableHlo.after_of_writes_sub hostOps0_1 _ hostOps0_1_writes (by decide : main_arg11 ∉ hostOps0_1_W)
    _ = W0 m ρ c (Proc.devRef .tc main_arg11) := StableHlo.after_of_writes_sub hostOps0 _ hostOps0_writes (by decide : main_arg11 ∉ hostOps0_W)
    _ = m ((c : Thread nD τ).loc main_arg11) := rfl

/-- `main_arg12` ends as launched: no host operation writes it and a region only reads it. -/
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_writes_sub hostOps1 _ hostOps1_writes (by decide : main_arg12 ∉ hostOps1_W)
    _ = W2 m ρ c (Proc.devRef .tc main_arg12) := W3_of_ne m ρ c main_arg12 (by decide)
    _ = W1 m ρ c (Proc.devRef .tc main_arg12) := StableHlo.after_of_writes_sub hostOps0_1 _ hostOps0_1_writes (by decide : main_arg12 ∉ hostOps0_1_W)
    _ = W0 m ρ c (Proc.devRef .tc main_arg12) := StableHlo.after_of_writes_sub hostOps0 _ hostOps0_writes (by decide : main_arg12 ∉ hostOps0_W)
    _ = m ((c : Thread nD τ).loc main_arg12) := rfl

/-! ## The proof data of both regions, and what rides along -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (U2 m ρ) c
  | ⟨1, _⟩ => fun c => dat1 (U4 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at `W2`, left with them at `W3`. Its arrays are split out
    of the unscoped buffers at entry and put back, at what the write-backs leave, at exit; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (U2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U2 m ρ c) (U3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W4`, left with them at `W5`. Its arrays are split out
    of the unscoped buffers at entry and put back, at what the write-backs leave, at exit; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (U5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev mainSegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ) ]

set_option backward.isDefEq.respectTransparency.types false in
/-- THE RUN. From any memory with zero counters every weakly fair execution of the entry function terminates without
    a fault, and in the final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (mainSegs m ρ)
    (fun c Q => by
      rewrite [main_chain c, Pipeline.Seg.run_eq_chain,
        show (mainSegs m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

/-- THE RESULTS: the three result arrays end at what region 1's write-backs leave, and the arguments unchanged. -/
theorem run_results : θ_run defs (onTc (τ := τ) (main (F := F))) ⟨m, fun _ => 0, ρ⟩ (fun r => ∀ c : Dev nD,
      r.2.mem ((c.tc : Thread nD τ).loc main_v14_0) = (dat1 (U4 m ρ) c).arrAt 7 cfg1.N
      ∧ r.2.mem ((c.tc : Thread nD τ).loc main_v14_1) = (dat1 (U4 m ρ) c).arrAt 8 cfg1.N
      ∧ r.2.mem ((c.tc : Thread nD τ).loc main_v14_2) = (dat1 (U4 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v14_0 (by decide))).trans (W5_arr m ρ c 7),
      (h c _ (mem_uc main_v14_1 (by decide))).trans (W5_arr m ρ c 8),
      (h c _ (mem_uc main_v14_2 (by decide))).trans (W5_arr m ρ c 9),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

end Cert.Kernel.Frame

end
-- ==== Proof.KernelIdeal.Region0.lean ====
/-
  Region 0 of the program (the preparation of the recurrent weights, eight row blocks of 256): each window's block,
  the one value the body stores, the body's triple, and the obligation the launch asks for at every grid point.
  Stated for any float instance.
-/
import proofs.«151164_j20787641712912_2_alg».proof.Proof.Gen.KernelIdeal.Launch
import proofs.«151164_j20787641712912_2_alg».proof.Proof.Gen.KernelIdeal.Skeleton
import proofs.«151164_j20787641712912_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the windows' blocks, what the body stores, its triple, and the obligation at every grid point.
    Everything here is stated at a parameter `V`: the contents of the core's buffers when the region is entered. -/

section Region0

variable (V : (c : Dev nD) → (b : Ref sig .tc) → Buf (Elt F) ((c : Thread nD τ).loc b))

/-- Window `w`'s block at grid point `t`: the part of its array (as the region finds it) that the point stages. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or an earlier one did
    (the block index has not moved since), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or an earlier one did
    (the block index has not moved since), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or an earlier one did
    (the block index has not moved since), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

abbrev r0_A : Rect S256x2048 := Rect.unit (s := S256x2048) ![0, 0] S256x2048.size inb_S256x2048_S256x2048_0_0
abbrev r0_B : Rect S256x1 := Rect.unit (s := S256x1) ![0, 0] S256x1.size inb_S256x1_S256x1_0_0

/-! ## What the body leaves in each output window's buffer: its one store, over the values it loaded -/

/-- The prepared block of recurrent weights: the mask times the sign times the rectified weight, entry by entry. -/
def out0_3 (x0 : Vec F S256x2048 .f32) (x1 : Vec F S256x2048 .f32) (x2 : Vec F S256x1 .f32) : Vec F S256x2048 .bf16 :=
  View.canon [⟨r0_A, k0_pay1 (View.ld x0 r0_A) (View.ld x1 r0_A) (View.ld x2 r0_B)⟩]

/-- The store is of the whole buffer, so it covers it. -/
theorem cover0_3 (p0 : Vec F S256x2048 .bf16) (y : S256x2048.Idx) :
    ∃ pc ∈ ([⟨r0_A, p0⟩] : List (View.Piece (Elt F) S256x2048 .bf16)), y ∈ pc.1.set :=
  View.cover_of_tiled [⟨r0_A, p0⟩] S256x2048.size (by rfl) y

/-! ## The body's triple -/

set_option maxHeartbeats 4000000 in
/-- The kernel body on whole staging buffers, the inputs' holding `x_w` and the outputs' anything, runs without a fault to
    the continuation with the inputs' buffers as they were and each output's holding what its store wrote. -/
theorem sound_kernel0 (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S256x2048 .bf16) (harg4 : arg4.IsWhole)
    (x0 : Vec F S256x2048 .f32) (x1 : Vec F S256x2048 .f32) (x2 : Vec F S256x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__prep_eff_rnn_kernel i arg1 harg1 arg2 harg2 arg3 harg3 arg4 harg4) K := by
  simp only [cc0__prep_eff_rnn_kernel_eq_skeleton]; unfold cc0__prep_eff_rnn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer still at its block and each
    output's at what the store wrote from the input blocks; the invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation at a grid point -/

/-- What the body is handed at point `t`: the invariant, the core's dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- At any point the inputs' buffers hold their blocks, so the body's triple applies; the invariant and the dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks for, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.KernelIdeal.Region1.lean ====
/-
  Region 1 of the program (the cell itself, sixteen batch blocks of 256 rows): each window's block, the three values the
  body stores (new activity, new depression state, new facilitation state), the body's triple, and the obligation the
  launch asks for at every grid point. Stated for any float instance.
-/
import proofs.«151164_j20787641712912_2_alg».proof.Proof.Gen.KernelIdeal.Launch
import proofs.«151164_j20787641712912_2_alg».proof.Proof.Gen.KernelIdeal.Skeleton
import proofs.«151164_j20787641712912_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the windows' blocks, what the body stores, its triple, and the obligation at every grid point.
    Everything here is stated at a parameter `V`: the contents of the core's buffers when the region is entered. -/

section Region1

variable (V : (c : Dev nD) → (b : Ref sig .tc) → Buf (Elt F) ((c : Thread nD τ).loc b))

/-- Window `w`'s block at grid point `t`: the part of its array (as the region finds it) that the point stages. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one did
    (the block index has not moved since), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or an earlier one did
    (the block index has not moved since), for any proof data over `V`'s arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through -/

abbrev r1_A : Rect S256x2048 := Rect.unit (s := S256x2048) ![0, 0] S256x2048.size inb_S256x2048_S256x2048_0_0
abbrev r1_I : Rect S256x512 := Rect.unit (s := S256x512) ![0, 0] S256x512.size inb_S256x512_S256x512_0_0
abbrev r1_W : Rect S512x2048 := Rect.unit (s := S512x2048) ![0, 0] S512x2048.size inb_S512x2048_S512x2048_0_0
abbrev r1_H : Rect S2048x2048 := Rect.unit (s := S2048x2048) ![0, 0] S2048x2048.size inb_S2048x2048_S2048x2048_0_0
abbrev r1_P0 : Rect S8x2048 := Rect.unit (s := S8x2048) ![0, 0] S1x2048.size inb_S8x2048_S1x2048_0_0
abbrev r1_P1 : Rect S8x2048 := Rect.unit (s := S8x2048) ![1, 0] S1x2048.size inb_S8x2048_S1x2048_1_0
abbrev r1_P2 : Rect S8x2048 := Rect.unit (s := S8x2048) ![2, 0] S1x2048.size inb_S8x2048_S1x2048_2_0
abbrev r1_P3 : Rect S8x2048 := Rect.unit (s := S8x2048) ![3, 0] S1x2048.size inb_S8x2048_S1x2048_3_0
abbrev r1_P4 : Rect S8x2048 := Rect.unit (s := S8x2048) ![4, 0] S1x2048.size inb_S8x2048_S1x2048_4_0

/-! ## What the body leaves in each output window's buffer: its one store, over the values it loaded -/

/-- The new activity block: the blend of the old activity with the rectified drive (input product, recurrent product, bias). -/
def out1_7 (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) : Vec F S256x2048 .f32 :=
  View.canon [⟨r1_A, k1_pay3 (View.ld x1 r1_A) (View.ld x3 r1_A) (k1_pay4 (View.ld x6 r1_P0)) (k1_pay6 (View.ld x1 r1_A) (View.ld x2 r1_A) (View.ld x3 r1_A) (View.ld x6 r1_P2) (View.ld x6 r1_P4)) (k1_pay7 (View.ld x1 r1_A) (View.ld x3 r1_A) (View.ld x6 r1_P1) (View.ld x6 r1_P3) (View.ld x6 r1_P4)) (View.ld x0 r1_I) (View.ld x4 r1_W) (View.ld x5 r1_H)⟩]

/-- The store is of the whole buffer, so it covers it. -/
theorem cover1_7 (p0 : Vec F S256x2048 .f32) (y : S256x2048.Idx) :
    ∃ pc ∈ ([⟨r1_A, p0⟩] : List (View.Piece (Elt F) S256x2048 .f32)), y ∈ pc.1.set :=
  View.cover_of_tiled [⟨r1_A, p0⟩] S256x2048.size (by rfl) y

/-- The new depression-state block, clamped into [0, 1]. -/
def out1_8 (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) : Vec F S256x2048 .f32 :=
  View.canon [⟨r1_A, k1_pay1 (k1_pay6 (View.ld x1 r1_A) (View.ld x2 r1_A) (View.ld x3 r1_A) (View.ld x6 r1_P2) (View.ld x6 r1_P4))⟩]

/-- The store is of the whole buffer, so it covers it. -/
theorem cover1_8 (p0 : Vec F S256x2048 .f32) (y : S256x2048.Idx) :
    ∃ pc ∈ ([⟨r1_A, p0⟩] : List (View.Piece (Elt F) S256x2048 .f32)), y ∈ pc.1.set :=
  View.cover_of_tiled [⟨r1_A, p0⟩] S256x2048.size (by rfl) y

/-- The new facilitation-state block, clamped into [0, 1]. -/
def out1_9 (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) : Vec F S256x2048 .f32 :=
  View.canon [⟨r1_A, k1_pay2 (View.ld x3 r1_A) (k1_pay7 (View.ld x1 r1_A) (View.ld x3 r1_A) (View.ld x6 r1_P1) (View.ld x6 r1_P3) (View.ld x6 r1_P4))⟩]

/-- The store is of the whole buffer, so it covers it. -/
theorem cover1_9 (p0 : Vec F S256x2048 .f32) (y : S256x2048.Idx) :
    ∃ pc ∈ ([⟨r1_A, p0⟩] : List (View.Piece (Elt F) S256x2048 .f32)), y ∈ pc.1.set :=
  View.cover_of_tiled [⟨r1_A, p0⟩] S256x2048.size (by rfl) y

/-! ## The body's triple -/

set_option maxHeartbeats 4000000 in
/-- The kernel body on whole staging buffers, the inputs' holding `x_w` and the outputs' anything, runs without a fault to
    the continuation with the inputs' buffers as they were and each output's holding what its store wrote. -/
theorem sound_kernel1 (c : Dev nD) (E : Set ℕ) (i : grid1.Coords) (arg1 : Memref sig .tc .vmem S256x512 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S512x2048 .bf16) (harg5 : arg5.IsWhole) (arg6 : Memref sig .tc .vmem S2048x2048 .bf16) (harg6 : arg6.IsWhole) (arg7 : Memref sig .tc .vmem S8x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole)
    (x0 : Vec F S256x512 .f32) (x1 : Vec F S256x2048 .f32) (x2 : Vec F S256x2048 .f32) (x3 : Vec F S256x2048 .f32) (x4 : Vec F S512x2048 .bf16) (x5 : Vec F S2048x2048 .bf16) (x6 : Vec F S8x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__cell_kernel i arg1 harg1 arg2 harg2 arg3 harg3 arg4 harg4 arg5 harg5 arg6 harg6 arg7 harg7 arg8 harg8 arg9 harg9 arg10 harg10) K := by
  simp only [cc1__cell_kernel_eq_skeleton]; unfold cc1__cell_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The region's proof data -/

/-- The arrays as the region finds them; after the body at point `t` each input's buffer still at its block and each
    output's at what the store wrote from the input blocks; the invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The obligation at a grid point -/

/-- What the body is handed at point `t`: the invariant, the core's dues, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- At any point the inputs' buffers hold their blocks, so the body's triple applies; the invariant and the dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the launch asks for, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frame

end
-- ==== Proof.KernelIdeal.Run.lean ====
/-
  The whole program as a run: the contents of the core's buffers followed through the five items of the entry function
  (two stretches of host operations, the weight-preparation region, a third stretch that packs the per-unit parameters,
  the cell region), each region entered and left through its arrays, and the launch theorem for a list of such items.
  The result reads EVERY unscoped buffer at the end of the run: an argument walks back, item by item, to the launch
  memory (nothing writes it); a region's output is what its write-backs left. Stated for any float instance.
-/
import proofs.«151164_j20787641712912_2_alg».proof.Proof.Gen.KernelIdeal.Launch
import proofs.«151164_j20787641712912_2_alg».proof.Proof.Gen.KernelIdeal.Skeleton
import proofs.«151164_j20787641712912_2_alg».proof.Proof.Gen.KernelIdeal.Points
import proofs.«151164_j20787641712912_2_alg».proof.Proof.Gen.KernelIdeal.Regions
import proofs.«151164_j20787641712912_2_alg».proof.Proof.KernelIdeal.Region0
import proofs.«151164_j20787641712912_2_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- At launch. -/
abbrev W0 : Dev nD → Valuation τ sig (Elt F) := fun c b => (s₀ m ρ).mem ((c : Dev nD), b)
/-- After the rectification of the input weights. -/
abbrev W1 : Dev nD → Valuation τ sig (Elt F) := fun c => StableHlo.after hostOps0 (W0 m ρ c)
/-- After their change of format and the reshape of the sign vector into a column: region 0's entry. -/
abbrev W2 : Dev nD → Valuation τ sig (Elt F) := fun c => StableHlo.after hostOps0_1 (W1 m ρ c)
abbrev U2 : (c : Dev nD) → (b : Ref sig .tc) → Buf (Elt F) ((c : Thread nD τ).loc b) := fun c b => W2 m ρ c b

/-- After region 0: its arrays at what the pipeline leaves (an input as entered, an output with every point's write-back
    folded in), every other buffer as entered. -/
def W3 (c : Dev nD) : Valuation τ sig (Elt F) :=
  Pipeline.withArrays spec0 c (W2 m ρ c) fun w => (dat0 (U2 m ρ) c).arrAt w cfg0.N
theorem W3_arr (c : Dev nD) (w : Fin cfg0.W) :
    W3 m ρ c (Proc.devRef .tc (Pipeline.arrRef spec0 w)) = (dat0 (U2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- The same contents read at the core's own references. -/
abbrev U3 : (c : Dev nD) → (b : Ref sig .tc) → Buf (Elt F) ((c : Thread nD τ).loc b) := fun c b => W3 m ρ c b
theorem hF0 (c : Dev nD) (w : Fin cfg0.W) : (dat0 (U2 m ρ) c).arrAt w cfg0.N = U3 m ρ c (Pipeline.arrRef spec0 w) :=
  (W3_arr m ρ c w).symm
theorem hrest0 (c : Dev nD) : ∀ b, b ∉ Finset.univ.image (Pipeline.arrRef spec0) → U3 m ρ c b = U2 m ρ c b :=
  fun b hb => W3_of_ne m ρ c b fun w e => hb (Finset.mem_image.mpr ⟨w, Finset.mem_univ _, e⟩)

/-- After the packing of the per-unit parameters into one eight-row array: region 1's entry. -/
abbrev W4 : Dev nD → Valuation τ sig (Elt F) := fun c => StableHlo.after hostOps1 (W3 m ρ c)
abbrev U4 : (c : Dev nD) → (b : Ref sig .tc) → Buf (Elt F) ((c : Thread nD τ).loc b) := fun c b => W4 m ρ c b

/-- After region 1: its arrays at what the pipeline leaves (an input as entered, an output with every point's write-back
    folded in), every other buffer as entered. -/
def W5 (c : Dev nD) : Valuation τ sig (Elt F) :=
  Pipeline.withArrays spec1 c (W4 m ρ c) fun w => (dat1 (U4 m ρ) c).arrAt w cfg1.N
theorem W5_arr (c : Dev nD) (w : Fin cfg1.W) :
    W5 m ρ c (Proc.devRef .tc (Pipeline.arrRef spec1 w)) = (dat1 (U4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same contents read at the core's own references. -/
abbrev U5 : (c : Dev nD) → (b : Ref sig .tc) → Buf (Elt F) ((c : Thread nD τ).loc b) := fun c b => W5 m ρ c b
theorem hF1 (c : Dev nD) (w : Fin cfg1.W) : (dat1 (U4 m ρ) c).arrAt w cfg1.N = U5 m ρ c (Pipeline.arrRef spec1 w) :=
  (W5_arr m ρ c w).symm
theorem hrest1 (c : Dev nD) : ∀ b, b ∉ Finset.univ.image (Pipeline.arrRef spec1) → U5 m ρ c b = U4 m ρ c b :=
  fun b hb => W5_of_ne m ρ c b fun w e => hb (Finset.mem_image.mpr ⟨w, Finset.mem_univ _, e⟩)

/-! ## The arguments end as launched -/

/-- `main_arg0` ends as launched: no host operation writes it and a region only reads it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat1 (U4 m ρ) c).arrAt_in 0 rfl _).trans (A_eq1 (U4 m ρ) c 0))
    _ = W3 m ρ c (Proc.devRef .tc main_arg0) := StableHlo.after_of_writes_sub hostOps1 _ hostOps1_writes (by decide : main_arg0 ∉ hostOps1_W)
    _ = W2 m ρ c (Proc.devRef .tc main_arg0) := W3_of_ne m ρ c main_arg0 (by decide)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

/-- `main_arg1` ends as launched: no host operation writes it and a region only reads it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 1).trans (((dat1 (U4 m ρ) c).arrAt_in 1 rfl _).trans (A_eq1 (U4 m ρ) c 1))
    _ = W3 m ρ c (Proc.devRef .tc main_arg1) := StableHlo.after_of_writes_sub hostOps1 _ hostOps1_writes (by decide : main_arg1 ∉ hostOps1_W)
    _ = W2 m ρ c (Proc.devRef .tc main_arg1) := W3_of_ne m ρ c main_arg1 (by decide)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

/-- `main_arg2` ends as launched: no host operation writes it and a region only reads it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 2).trans (((dat1 (U4 m ρ) c).arrAt_in 2 rfl _).trans (A_eq1 (U4 m ρ) c 2))
    _ = W3 m ρ c (Proc.devRef .tc main_arg2) := StableHlo.after_of_writes_sub hostOps1 _ hostOps1_writes (by decide : main_arg2 ∉ hostOps1_W)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

/-- `main_arg3` ends as launched: no host operation writes it and a region only reads it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 3).trans (((dat1 (U4 m ρ) c).arrAt_in 3 rfl _).trans (A_eq1 (U4 m ρ) c 3))
    _ = W3 m ρ c (Proc.devRef .tc main_arg3) := StableHlo.after_of_writes_sub hostOps1 _ hostOps1_writes (by decide : main_arg3 ∉ hostOps1_W)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

/-- `main_arg4` ends as launched: no host operation writes it and a region only reads it. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps1 _ hostOps1_writes (by decide : main_arg4 ∉ hostOps1_W)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

/-- `main_arg5` ends as launched: no host operation writes it and a region only reads it. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps1 _ hostOps1_writes (by decide : main_arg5 ∉ hostOps1_W)
    _ = W2 m ρ c (Proc.devRef .tc main_arg5) := (W3_arr m ρ c 0).trans (((dat0 (U2 m ρ) c).arrAt_in 0 rfl _).trans (A_eq0 (U2 m ρ) c 0))
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-- `main_arg6` ends as launched: no host operation writes it and a region only reads it. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_writes_sub hostOps1 _ hostOps1_writes (by decide : main_arg6 ∉ hostOps1_W)
    _ = W2 m ρ c (Proc.devRef .tc main_arg6) := W3_of_ne m ρ c main_arg6 (by decide)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

/-- `main_arg7` ends as launched: no host operation writes it and a region only reads it. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_writes_sub hostOps1 _ hostOps1_writes (by decide : main_arg7 ∉ hostOps1_W)
    _ = W2 m ρ c (Proc.devRef .tc main_arg7) := W3_of_ne m ρ c main_arg7 (by decide)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

/-- `main_arg8` ends as launched: no host operation writes it and a region only reads it. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_writes_sub hostOps1 _ hostOps1_writes (by decide : main_arg8 ∉ hostOps1_W)
    _ = W2 m ρ c (Proc.devRef .tc main_arg8) := (W3_arr m ρ c 1).trans (((dat0 (U2 m ρ) c).arrAt_in 1 rfl _).trans (A_eq0 (U2 m ρ) c 1))
    _ = W1 m ρ c (Proc.devRef .tc main_arg8) := StableHlo.after_of_writes_sub hostOps0_1 _ hostOps0_1_writes (by decide : main_arg8 ∉ hostOps0_1_W)
    _ = W0 m ρ c (Proc.devRef .tc main_arg8) := StableHlo.after_of_writes_sub hostOps0 _ hostOps0_writes (by decide : main_arg8 ∉ hostOps0_W)
    _ = m ((c : Thread nD τ).loc main_arg8) := rfl

/-- `main_arg9` ends as launched: no host operation writes it and a region only reads it. -/
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_writes_sub hostOps1 _ hostOps1_writes (by decide : main_arg9 ∉ hostOps1_W)
    _ = W2 m ρ c (Proc.devRef .tc main_arg9) := W3_of_ne m ρ c main_arg9 (by decide)
    _ = W1 m ρ c (Proc.devRef .tc main_arg9) := StableHlo.after_of_writes_sub hostOps0_1 _ hostOps0_1_writes (by decide : main_arg9 ∉ hostOps0_1_W)
    _ = W0 m ρ c (Proc.devRef .tc main_arg9) := StableHlo.after_of_writes_sub hostOps0 _ hostOps0_writes (by decide : main_arg9 ∉ hostOps0_W)
    _ = m ((c : Thread nD τ).loc main_arg9) := rfl

/-- `main_arg10` ends as launched: no host operation writes it and a region only reads it. -/
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_writes_sub hostOps1 _ hostOps1_writes (by decide : main_arg10 ∉ hostOps1_W)
    _ = W2 m ρ c (Proc.devRef .tc main_arg10) := W3_of_ne m ρ c main_arg10 (by decide)
    _ = W1 m ρ c (Proc.devRef .tc main_arg10) := StableHlo.after_of_writes_sub hostOps0_1 _ hostOps0_1_writes (by decide : main_arg10 ∉ hostOps0_1_W)
    _ = W0 m ρ c (Proc.devRef .tc main_arg10) := StableHlo.after_of_writes_sub hostOps0 _ hostOps0_writes (by decide : main_arg10 ∉ hostOps0_W)
    _ = m ((c : Thread nD τ).loc main_arg10) := rfl

/-- `main_arg11` ends as launched: no host operation writes it and a region only reads it. -/
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := StableHlo.after_of_writes_sub hostOps1 _ hostOps1_writes (by decide : main_arg11 ∉ hostOps1_W)
    _ = W2 m ρ c (Proc.devRef .tc main_arg11) := W3_of_ne m ρ c main_arg11 (by decide)
    _ = W1 m ρ c (Proc.devRef .tc main_arg11) := StableHlo.after_of_writes_sub hostOps0_1 _ hostOps0_1_writes (by decide : main_arg11 ∉ hostOps0_1_W)
    _ = W0 m ρ c (Proc.devRef .tc main_arg11) := StableHlo.after_of_writes_sub hostOps0 _ hostOps0_writes (by decide : main_arg11 ∉ hostOps0_W)
    _ = m ((c : Thread nD τ).loc main_arg11) := rfl

/-- `main_arg12` ends as launched: no host operation writes it and a region only reads it. -/
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_writes_sub hostOps1 _ hostOps1_writes (by decide : main_arg12 ∉ hostOps1_W)
    _ = W2 m ρ c (Proc.devRef .tc main_arg12) := W3_of_ne m ρ c main_arg12 (by decide)
    _ = W1 m ρ c (Proc.devRef .tc main_arg12) := StableHlo.after_of_writes_sub hostOps0_1 _ hostOps0_1_writes (by decide : main_arg12 ∉ hostOps0_1_W)
    _ = W0 m ρ c (Proc.devRef .tc main_arg12) := StableHlo.after_of_writes_sub hostOps0 _ hostOps0_writes (by decide : main_arg12 ∉ hostOps0_W)
    _ = m ((c : Thread nD τ).loc main_arg12) := rfl

/-! ## The proof data of both regions, and what rides along -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (U2 m ρ) c
  | ⟨1, _⟩ => fun c => dat1 (U4 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at `W2`, left with them at `W3`. Its arrays are split out
    of the unscoped buffers at entry and put back, at what the write-backs leave, at exit; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (U2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U2 m ρ c) (U3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W4`, left with them at `W5`. Its arrays are split out
    of the unscoped buffers at entry and put back, at what the write-backs leave, at exit; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (U5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev mainSegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ) ]

set_option backward.isDefEq.respectTransparency.types false in
/-- THE RUN. From any memory with zero counters every weakly fair execution of the entry function terminates without
    a fault, and in the final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (mainSegs m ρ)
    (fun c Q => by
      rewrite [main_chain c, Pipeline.Seg.run_eq_chain,
        show (mainSegs m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

/-- THE RESULTS: the three result arrays end at what region 1's write-backs leave, and the arguments unchanged. -/
theorem run_results : θ_run defs (onTc (τ := τ) (main (F := F))) ⟨m, fun _ => 0, ρ⟩ (fun r => ∀ c : Dev nD,
      r.2.mem ((c.tc : Thread nD τ).loc main_v14_0) = (dat1 (U4 m ρ) c).arrAt 7 cfg1.N
      ∧ r.2.mem ((c.tc : Thread nD τ).loc main_v14_1) = (dat1 (U4 m ρ) c).arrAt 8 cfg1.N
      ∧ r.2.mem ((c.tc : Thread nD τ).loc main_v14_2) = (dat1 (U4 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v14_0 (by decide))).trans (W5_arr m ρ c 7),
      (h c _ (mem_uc main_v14_1 (by decide))).trans (W5_arr m ρ c 8),
      (h c _ (mem_uc main_v14_2 (by decide))).trans (W5_arr m ρ c 9),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

end Cert.KernelIdeal.Frame

end
-- ==== Proof.Spec.lean ====
/-
  The short-term-plasticity recurrent cell, entry by entry, on the extended reals.

  For a batch row `p` and a hidden unit `q` the cell first moves the two synaptic states,
    x' = clip (x + (a_std (1 - x) - dt u x h) d),    u' = clip (u + (a_stf (U - u) + dt U (1 - u) h) d),
  with `clip y = min 1 (max 0 y)`, `h` the incoming activity and `d` the per-unit switch, then forms the
  presynaptic drive `u' x' h`, feeds it through the sign-constrained recurrent weights
  `mask (ei (max w 0))` beside the input through `max w_ih 0`, adds the bias, and blends:
    h' = 0.8 h + 0.2 max pre 0.
  The constants are the binary32 values the programs spell (`dt` is the binary32 nearest 0.01, and so on);
  they are never evaluated, only compared.
-/
import Idealize.ShloMosaic.PureOps.Ideal
import Idealize.ShloMosaic.Lib.ValueIdx

noncomputable section

open scoped BigOperators

namespace Cert.Spec

open Idealize.ShloMosaic Idealize.ShloMosaic.ValueIdx

/-- 0, 1, the time step, and the two blend weights, as the binary32 values the programs spell. -/
abbrev c0 : EReal := Ideal.ofBits .f32 0x00000000#32
abbrev c1 : EReal := Ideal.ofBits .f32 0x3F800000#32
abbrev cdt : EReal := Ideal.ofBits .f32 0x3C23D70A#32
abbrev c08 : EReal := Ideal.ofBits .f32 0x3F4CCCCD#32
abbrev c02 : EReal := Ideal.ofBits .f32 0x3E4CCCCD#32

/-- Clamp into [0, 1]: the lower bound first, then the upper. -/
def clip01 (y : EReal) : EReal := min c1 (max c0 y)

/-- The depression state after one step. -/
def synX (h x u aStd d : EReal) : EReal :=
  clip01 (x + (aStd * (c1 - x) - cdt * u * x * h) * d)

/-- The facilitation state after one step. -/
def synU (h u aStf U d : EReal) : EReal :=
  clip01 (u + (aStf * (U - u) + cdt * U * (c1 - u) * h) * d)

/-- One recurrent weight after the sign constraint and the mask. -/
def effW (w ei mask : EReal) : EReal := mask * (ei * max w c0)

/-- The blend of the old activity with the rectified drive. -/
def blend (h pre : EReal) : EReal := h * c08 + c02 * max pre c0

variable (inp : (⟨2, ![4096, 512]⟩ : Shape).Idx → EReal)
  (h x u : (⟨2, ![4096, 2048]⟩ : Shape).Idx → EReal)
  (wih : (⟨2, ![512, 2048]⟩ : Shape).Idx → EReal)
  (whh mask : (⟨2, ![2048, 2048]⟩ : Shape).Idx → EReal)
  (bias ei aStf aStd U d : (⟨1, ![2048]⟩ : Shape).Idx → EReal)

/-- The new depression state of unit `q` in row `p`. -/
def SynX (p : Fin 4096) (q : Fin 2048) : EReal :=
  synX (h (ix2 p q)) (x (ix2 p q)) (u (ix2 p q)) (aStd (ix1 q)) (d (ix1 q))

/-- The new facilitation state of unit `q` in row `p`. -/
def SynU (p : Fin 4096) (q : Fin 2048) : EReal :=
  synU (h (ix2 p q)) (u (ix2 p q)) (aStf (ix1 q)) (U (ix1 q)) (d (ix1 q))

/-- The presynaptic drive of unit `k` in row `p`. -/
def Post (p : Fin 4096) (k : Fin 2048) : EReal :=
  SynU h u aStf U d p k * SynX h x u aStd d p k * h (ix2 p k)

/-- The recurrent weight from unit `k` to unit `g`. -/
def EffW (k g : Fin 2048) : EReal := effW (whh (ix2 k g)) (ei (ix1 k)) (mask (ix2 k g))

/-- The drive of unit `g` in row `p`: input, recurrence, bias. -/
def Pre (p : Fin 4096) (g : Fin 2048) : EReal :=
  (∑ k : Fin 512, inp (ix2 p k) * max (wih (ix2 k g)) c0)
    + (∑ k : Fin 2048, Post h x u aStf aStd U d p k * EffW whh mask ei k g)
    + bias (ix1 g)

/-- The new activity of unit `g` in row `p`. -/
def HOut (p : Fin 4096) (g : Fin 2048) : EReal :=
  blend (h (ix2 p g)) (Pre inp h x u wih whh mask bias ei aStf aStd U d p g)

end Cert.Spec

end
-- ==== Proof.Payloads.lean ====
/-
  The values the two kernel bodies store, read entry by entry.

  The first body prepares one block of the recurrent weights: the stored entry at (r, g) is
  mask * (ei * max w 0), with the excitatory/inhibitory sign of row r read from a one-column block.
  The second body moves the two synaptic states, x' = clip (x + (a_std (1 - x) - dt u x h) d) and
  u' = clip (u + (a_stf (U - u) + dt U (1 - u) h) d), entry by entry (the per-unit parameters are rows
  of length 2048 spread over the 256 batch rows), forms the drive u' x' h, multiplies it and the input
  block into the two prepared weight matrices, adds the bias row, and blends 0.8 h + 0.2 max pre 0.
  On the extended reals every pointwise operation reads at an index by unfolding; the two layout
  operations (a row or a column spread over a block) and the two matrix products each get one lemma.
-/
import proofs.«151164_j20787641712912_2_alg».proof.Proof.Gen.KernelIdeal.Skeleton
import proofs.«151164_j20787641712912_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Idealize.SL.Sem Cert.KernelIdeal

/-! ## The layout operations at an index -/

/-- A `[a, 1]` column spread to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row of per-unit parameters, cast to its own shape and spread over the 256 batch rows, reads the
    row's entry of the unit. -/
theorem row_apply (v : FVec Ideal S1x2048 .f32) (r : Fin 256) (q : Fin 2048) :
    broadcastTo S256x2048 (shapeCast S1x2048 v Gen.shapeCasts_S1x2048_S1x2048) Gen.broadcasts_S1x2048_S256x2048 (ix2 r q)
      = v (ix2 (0 : Fin 1) q) := by
  rw [shapeCast_self]
  exact broadcastTo_1b_ab_apply v Gen.broadcasts_S1x2048_S256x2048 r q

/-- A row spread over the 256 batch rows reads the row's entry of the unit. -/
theorem row_apply' (v : FVec Ideal S1x2048 .f32) (r : Fin 256) (q : Fin 2048) :
    broadcastTo S256x2048 v Gen.broadcasts_S1x2048_S256x2048 (ix2 r q) = v (ix2 (0 : Fin 1) q) :=
  broadcastTo_1b_ab_apply v Gen.broadcasts_S1x2048_S256x2048 r q

/-- The one-column block of signs, cast to its own shape and spread over the 2048 columns, reads the
    sign of the row. -/
theorem col_apply (v : FVec Ideal S256x1 .f32) (r : Fin 256) (g : Fin 2048) :
    broadcastTo S256x2048 (shapeCast S256x1 v Gen.shapeCasts_S256x1_S256x1) Gen.broadcasts_S256x1_S256x2048 (ix2 r g)
      = v (ix2 r (0 : Fin 1)) := by
  rw [shapeCast_self]
  exact broadcastTo_a1_ab_apply v Gen.broadcasts_S256x1_S256x2048 r g

/-! ## The two matrix products

Each product accumulates into the zero block, so its entry at (r, g) is the sum over the contraction
index alone; the contraction index has one axis, and the operands' indices at (r, g) and k are (r, k)
and (k, g). -/

theorem lhs_in_0 (i : S256x2048.Idx) (c : dot_S256x512_S512x2048_S256x2048_1_0_0_1_n_n.contr.Idx) :
    (dot_S256x512_S512x2048_S256x2048_1_0_0_1_n_n.lhsIdx i c 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs_in_1 (i : S256x2048.Idx) (c : dot_S256x512_S512x2048_S256x2048_1_0_0_1_n_n.contr.Idx) :
    (dot_S256x512_S512x2048_S256x2048_1_0_0_1_n_n.lhsIdx i c 1).val = (c ⟨0, by decide⟩).val :=
  dot_S256x512_S512x2048_S256x2048_1_0_0_1_n_n.lhsIdx_val_of_single rfl i c
theorem rhs_in_0 (i : S256x2048.Idx) (c : dot_S256x512_S512x2048_S256x2048_1_0_0_1_n_n.contr.Idx) :
    (dot_S256x512_S512x2048_S256x2048_1_0_0_1_n_n.rhsIdx i c 0).val = (c ⟨0, by decide⟩).val :=
  dot_S256x512_S512x2048_S256x2048_1_0_0_1_n_n.rhsIdx_val_of_single rfl i c
theorem rhs_in_1 (i : S256x2048.Idx) (c : dot_S256x512_S512x2048_S256x2048_1_0_0_1_n_n.contr.Idx) :
    (dot_S256x512_S512x2048_S256x2048_1_0_0_1_n_n.rhsIdx i c 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The input block times the prepared input weights, at an entry: the sum over the 512 input features. -/
theorem matmul_in_apply (l : FVec Ideal S256x512 .bf16) (w : FVec Ideal S512x2048 .bf16) (r : Fin 256) (g : Fin 2048) :
    matmul (F := Ideal) dot_S256x512_S512x2048_S256x2048_1_0_0_1_n_n none l w (constant (F := Ideal) S256x2048 .f32 0x00000000#32) (ix2 r g)
      = ∑ k : Fin 512, l (ix2 r k) * w (ix2 k g) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 r g) ((contrEquiv1 dot_S256x512_S512x2048_S256x2048_1_0_0_1_n_n 512 rfl rfl).symm k) = ix2 r k := funext fun a => Fin.ext (by
    match a with
    | ⟨0, _⟩ => exact lhs_in_0 _ _
    | ⟨1, _⟩ => exact (lhs_in_1 _ _).trans hk)
  have er : dot_S256x512_S512x2048_S256x2048_1_0_0_1_n_n.rhsIdx (ix2 r g) ((contrEquiv1 dot_S256x512_S512x2048_S256x2048_1_0_0_1_n_n 512 rfl rfl).symm k) = ix2 k g := funext fun a => Fin.ext (by
    match a with
    | ⟨0, _⟩ => exact (rhs_in_0 _ _).trans hk
    | ⟨1, _⟩ => exact rhs_in_1 _ _)
  rw [el, er]

theorem lhs_rec_0 (i : S256x2048.Idx) (c : dot_S256x2048_S2048x2048_S256x2048_1_0_0_1_n_n.contr.Idx) :
    (dot_S256x2048_S2048x2048_S256x2048_1_0_0_1_n_n.lhsIdx i c 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_rec_1 (i : S256x2048.Idx) (c : dot_S256x2048_S2048x2048_S256x2048_1_0_0_1_n_n.contr.Idx) :
    (dot_S256x2048_S2048x2048_S256x2048_1_0_0_1_n_n.lhsIdx i c 1).val = (c ⟨0, by decide⟩).val :=
  dot_S256x2048_S2048x2048_S256x2048_1_0_0_1_n_n.lhsIdx_val_of_single rfl i c
theorem rhs_rec_0 (i : S256x2048.Idx) (c : dot_S256x2048_S2048x2048_S256x2048_1_0_0_1_n_n.contr.Idx) :
    (dot_S256x2048_S2048x2048_S256x2048_1_0_0_1_n_n.rhsIdx i c 0).val = (c ⟨0, by decide⟩).val :=
  dot_S256x2048_S2048x2048_S256x2048_1_0_0_1_n_n.rhsIdx_val_of_single rfl i c
theorem rhs_rec_1 (i : S256x2048.Idx) (c : dot_S256x2048_S2048x2048_S256x2048_1_0_0_1_n_n.contr.Idx) :
    (dot_S256x2048_S2048x2048_S256x2048_1_0_0_1_n_n.rhsIdx i c 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The drive times the prepared recurrent weights, at an entry: the sum over the 2048 presynaptic units. -/
theorem matmul_rec_apply (l : FVec Ideal S256x2048 .bf16) (w : FVec Ideal S2048x2048 .bf16) (r : Fin 256) (g : Fin 2048) :
    matmul (F := Ideal) dot_S256x2048_S2048x2048_S256x2048_1_0_0_1_n_n none l w (constant (F := Ideal) S256x2048 .f32 0x00000000#32) (ix2 r g)
      = ∑ k : Fin 2048, l (ix2 r k) * w (ix2 k g) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 r g) ((contrEquiv1 dot_S256x2048_S2048x2048_S256x2048_1_0_0_1_n_n 2048 rfl rfl).symm k) = ix2 r k := funext fun a => Fin.ext (by
    match a with
    | ⟨0, _⟩ => exact lhs_rec_0 _ _
    | ⟨1, _⟩ => exact (lhs_rec_1 _ _).trans hk)
  have er : dot_S256x2048_S2048x2048_S256x2048_1_0_0_1_n_n.rhsIdx (ix2 r g) ((contrEquiv1 dot_S256x2048_S2048x2048_S256x2048_1_0_0_1_n_n 2048 rfl rfl).symm k) = ix2 k g := funext fun a => Fin.ext (by
    match a with
    | ⟨0, _⟩ => exact (rhs_rec_0 _ _).trans hk
    | ⟨1, _⟩ => exact rhs_rec_1 _ _)
  rw [el, er]

variable (r : Fin 256) (q g : Fin 2048)

/-! ## The prepared weight -/

/-- The first body's stored entry is the masked, sign-constrained weight. -/
theorem prep_apply (v0 v3 : Vec Ideal S256x2048 .f32) (v4 : Vec Ideal S256x1 .f32) :
    Gen.k0_pay1 (F := Ideal) v0 v3 v4 (ix2 r g)
      = Cert.Spec.effW (v0 (ix2 r g)) (v4 (ix2 r 0)) (v3 (ix2 r g)) := by
  unfold Gen.k0_pay1
  simp only [truncf_apply, mulf_apply, maximumf_apply, broadcast_apply]
  rw [col_apply]
  rfl

/-! ## The two synaptic states -/

/-- The depression state the second body stores. -/
theorem synX_apply (v0 v1 v2 : Vec Ideal S256x2048 .f32) (v7 v11 : Vec Ideal S1x2048 .f32) :
    Gen.k1_pay1 (Gen.k1_pay6 (F := Ideal) v0 v1 v2 v7 v11) (ix2 r q)
      = Cert.Spec.synX (v0 (ix2 r q)) (v1 (ix2 r q)) (v2 (ix2 r q)) (v7 (ix2 0 q)) (v11 (ix2 0 q)) := by
  unfold Gen.k1_pay1 Gen.k1_pay6 Gen.k1_pay5
  simp only [minimumf_apply, maximumf_apply, addf_apply, subf_apply, mulf_apply, broadcast_apply]
  rw [row_apply, row_apply]
  rfl

/-- The facilitation state the second body stores. -/
theorem synU_apply (v0 v2 : Vec Ideal S256x2048 .f32) (v5 v9 v11 : Vec Ideal S1x2048 .f32) :
    Gen.k1_pay2 v2 (Gen.k1_pay7 (F := Ideal) v0 v2 v5 v9 v11) (ix2 r q)
      = Cert.Spec.synU (v0 (ix2 r q)) (v2 (ix2 r q)) (v5 (ix2 0 q)) (v9 (ix2 0 q)) (v11 (ix2 0 q)) := by
  unfold Gen.k1_pay2 Gen.k1_pay7 Gen.k1_pay5
  simp only [minimumf_apply, maximumf_apply, addf_apply, subf_apply, mulf_apply, broadcast_apply]
  rw [row_apply, row_apply, row_apply, shapeCast_self, row_apply']
  rfl

/-! ## The new activity -/

/-- The activity the second body stores: the blend of the old activity with the rectified drive, the
    drive being the input product, the recurrent product of `u' x' h`, and the bias. -/
theorem hOut_apply (v0 v1 v2 : Vec Ideal S256x2048 .f32) (v3 v5 v7 v9 v11 : Vec Ideal S1x2048 .f32)
    (v50 : Vec Ideal S256x512 .f32) (v53 : Vec Ideal S512x2048 .bf16) (v56 : Vec Ideal S2048x2048 .bf16) :
    Gen.k1_pay3 (F := Ideal) v0 v2 (Gen.k1_pay4 v3) (Gen.k1_pay6 v0 v1 v2 v7 v11) (Gen.k1_pay7 v0 v2 v5 v9 v11) v50 v53 v56 (ix2 r g)
      = Cert.Spec.blend (v0 (ix2 r g))
          ((∑ k : Fin 512, v50 (ix2 r k) * v53 (ix2 k g))
            + (∑ k : Fin 2048, (Cert.Spec.synU (v0 (ix2 r k)) (v2 (ix2 r k)) (v5 (ix2 0 k)) (v9 (ix2 0 k)) (v11 (ix2 0 k))
                  * Cert.Spec.synX (v0 (ix2 r k)) (v1 (ix2 r k)) (v2 (ix2 r k)) (v7 (ix2 0 k)) (v11 (ix2 0 k)) * v0 (ix2 r k))
                * v56 (ix2 k g))
            + v3 (ix2 0 g)) := by
  unfold Gen.k1_pay3 Gen.k1_pay4
  simp only [addf_apply, mulf_apply, maximumf_apply, broadcast_apply]
  rw [row_apply, shapeCast_self, shapeCast_self, matmul_in_apply, matmul_rec_apply]
  unfold Cert.Spec.blend
  simp only [truncf_apply, mulf_apply, synX_apply, synU_apply]
  rfl

end Cert.KernelIdeal.Pay

end
-- ==== Proof.Blocks0.lean ====
/-
  Region 0's result as one array. Grid point `t` of the weight preparation stages rows 256 t … 256 t + 255 of the recurrent
  weights, of the mask and of the sign column, and writes back the same rows of the result; entry (k, g) of what it writes is
  mask(k, g) · (sign(k) · max(w(k, g), 0)). The eight blocks tile the 2048 rows, so after the region the whole array holds
  that function of the three arrays the region found.
-/
import proofs.«151164_j20787641712912_2_alg».proof.Proof.KernelIdeal.Region0
import proofs.«151164_j20787641712912_2_alg».proof.Proof.Payloads
import Idealize.ShloMosaic.Lib.Pipeline.Value

set_option maxRecDepth 16384

noncomputable section

namespace Cert.KernelIdeal.Blocks0

open Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The prepared recurrent weights as one array, from the weights, the mask and the sign column. -/
def EffArr (whh mask : S2048x2048.Idx → EReal) (ei2 : S2048x1.Idx → EReal) : S2048x2048.Idx → EReal :=
  fun j => Cert.Spec.effW (whh j) (ei2 (ix2 (⟨(j 0).val, idx2_lt0 j⟩ : Fin 2048) (0 : Fin 1))) (mask j)

/-- The block index maps over the grid: every window moves down one block of rows per point and stays in column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the prepared weights of the arrays as the region finds them. -/
theorem flushed3_eq (c : Dev nD) (t : Fin cfg0.N) :
    (dat0 (F := Ideal) V c).flushed 3 t = ((cfg0.win 3).blk t).view.read (Elt Ideal) (EffArr (V c main_arg5) (V c main_arg8) (V c main_v2)) := by
  show (cfg0.win 3).cut (grid0.coords t) ((dat0 V c).after 3 t) = _
  rw [after0_3]
  unfold out0_3
  rw [View.canon_unit_zero hz]
  simp only [View.ld_unit_zero (S := S256x2048) hz, View.ld_unit_zero (S := S256x1) hz]
  obtain ⟨e00, e01, e10, e11, e20, e21, e30, e31⟩ := idx_facts t
  funext y
  obtain ⟨r, g, rfl⟩ : ∃ (r : Fin 256) (g : Fin 2048), y = ix2 r g := ⟨y 0, y 1, eq_ix2 y⟩
  show k0_pay1 (iblk0 V c 0 t) (iblk0 V c 1 t) (iblk0 V c 2 t) (ix2 r g)
    = EffArr (V c main_arg5) (V c main_arg8) (V c main_v2) (((cfg0.win 3).blk t).view.emb (ix2 r g))
  refine (Cert.KernelIdeal.Pay.prep_apply r g _ _ _).trans ?_
  unfold EffArr
  have h0 : iblk0 V c 0 t (ix2 r g) = V c main_arg5 (((cfg0.win 3).blk t).view.emb (ix2 r g)) := by
    show V c main_arg5 (((cfg0.win 0).blk t).view.emb (ix2 r g)) = _
    congr 1 <;> (funext a; apply Fin.ext; match a with
    | ⟨0, _⟩ => show win0_0.index t (0 : Fin 2) * 256 + 1 * r.val = win0_3.index t (0 : Fin 2) * 256 + 1 * r.val; omega
    | ⟨1, _⟩ => show win0_0.index t (1 : Fin 2) * 2048 + 1 * g.val = win0_3.index t (1 : Fin 2) * 2048 + 1 * g.val; omega)
  have h1 : iblk0 V c 1 t (ix2 r g) = V c main_arg8 (((cfg0.win 3).blk t).view.emb (ix2 r g)) := by
    show V c main_arg8 (((cfg0.win 1).blk t).view.emb (ix2 r g)) = _
    congr 1 <;> (funext a; apply Fin.ext; match a with
    | ⟨0, _⟩ => show win0_1.index t (0 : Fin 2) * 256 + 1 * r.val = win0_3.index t (0 : Fin 2) * 256 + 1 * r.val; omega
    | ⟨1, _⟩ => show win0_1.index t (1 : Fin 2) * 2048 + 1 * g.val = win0_3.index t (1 : Fin 2) * 2048 + 1 * g.val; omega)
  have h2 : iblk0 V c 2 t (ix2 r (0 : Fin 1))
      = V c main_v2 (ix2 (⟨((((cfg0.win 3).blk t).view.emb (ix2 r g)) 0).val, idx2_lt0 _⟩ : Fin 2048) (0 : Fin 1)) := by
    show V c main_v2 (((cfg0.win 2).blk t).view.emb (ix2 r (0 : Fin 1))) = _
    congr 1 <;> (funext a; apply Fin.ext; match a with
    | ⟨0, _⟩ => show win0_2.index t (0 : Fin 2) * 256 + 1 * r.val = win0_3.index t (0 : Fin 2) * 256 + 1 * r.val; omega
    | ⟨1, _⟩ => show win0_2.index t (1 : Fin 2) * 1 + 1 * 0 = 0; omega)
  rw [h0, h1, h2]

/-- An index of the array is in point `t`'s block iff each coordinate is in the block's range on its axis. -/
theorem mem_blk3 (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v3).slice (win0_3.rect t)).set ↔ _
  rw [View.set_slice_whole, Rect.mem_set_unit]
  exact Iff.rfl

/-- Row `i` lies in the block of the point `i / 256`, which writes back: the eight blocks tile the array. -/
theorem cover3 (i : S2048x2048.Idx) : ∃ t : Fin cfg0.N, (cfg0.win 3).flush t = true ∧ i ∈ ((cfg0.win 3).blk t).view.set := by
  have hi0 : (i 0).val < 2048 := idx2_lt0 i
  have hi1 : (i 1).val < 2048 := idx2_lt1 i
  have hN : grid0.N = 8 := N_0
  let t : Fin cfg0.N := ⟨(i 0).val / 256, by show (i 0).val / 256 < grid0.N; omega⟩
  obtain ⟨-, -, -, -, -, -, e30, e31⟩ := idx_facts t
  have e30' : win0_3.index t (0 : Fin 2) = (i 0).val / 256 := e30
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- THE ARRAY after region 0: the prepared weights of the three arrays the region found. -/
theorem final3 (c : Dev nD) : (dat0 (F := Ideal) V c).arrAt 3 cfg0.N = EffArr (V c main_arg5) (V c main_arg8) (V c main_v2) :=
  (dat0 V c).arrAt_eq_of_cover 3 _ (fun t _ => flushed3_eq V c t) (cover3)

end Cert.KernelIdeal.Blocks0

end
-- ==== Proof.Blocks1.lean ====
/-
  Region 1's three results as whole arrays. Grid point `t` of the cell stages rows 256 t … 256 t + 255 of the input, of the
  old activity and of the two synaptic states, together with the whole of the two prepared weight matrices and of the table
  of per-unit parameter rows (bias, a_stf, a_std, U, the switch), and writes back the same rows of the three results. Entry
  (r, q) of what it writes reads the staged blocks at row r, the parameter rows at column q, and for the new activity the
  weight matrices at column q; read back through the blocks' places in their arrays these are rows 256 t + r of the arrays.
  The sixteen blocks tile the 4096 rows, so after the region each result array is one function of the seven arrays found.
-/
import proofs.«151164_j20787641712912_2_alg».proof.Proof.KernelIdeal.Region1
import proofs.«151164_j20787641712912_2_alg».proof.Proof.Payloads
import proofs.«151164_j20787641712912_2_alg».proof.Proof.Spec
import Idealize.ShloMosaic.Lib.Pipeline.Value
import Idealize.ShloMosaic.Lib.ValueIdx

set_option maxRecDepth 16384

noncomputable section

open scoped BigOperators

namespace Cert.KernelIdeal.Blocks1

open Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The three results as functions of the seven arrays -/

/-- The unit (column) of an entry of a [4096, 2048] array. -/
def col (j : S4096x2048.Idx) : Fin 2048 := ⟨(j 1).val, idx2_lt1 j⟩
/-- The batch row of an entry of a [4096, 2048] array. -/
def row (j : S4096x2048.Idx) : Fin 4096 := ⟨(j 0).val, idx2_lt0 j⟩

/-- The new depression state as one array: rows 2 and 4 of the parameter table are a_std and the switch. -/
def SynXArr (h x u : S4096x2048.Idx → EReal) (P : S8x2048.Idx → EReal) : S4096x2048.Idx → EReal :=
  fun j => Cert.Spec.synX (h j) (x j) (u j) (P (ix2 (2 : Fin 8) (col j))) (P (ix2 (4 : Fin 8) (col j)))

/-- The new facilitation state as one array: rows 1, 3 and 4 of the parameter table are a_stf, U and the switch. -/
def SynUArr (h u : S4096x2048.Idx → EReal) (P : S8x2048.Idx → EReal) : S4096x2048.Idx → EReal :=
  fun j => Cert.Spec.synU (h j) (u j) (P (ix2 (1 : Fin 8) (col j))) (P (ix2 (3 : Fin 8) (col j))) (P (ix2 (4 : Fin 8) (col j)))

/-- The new activity as one array: the blend of the old activity with the rectified drive, the drive being the input
    row times the prepared input weights, the presynaptic drive u' x' h of the row times the prepared recurrent weights,
    and the bias (row 0 of the parameter table). -/
def HOutArr (inp : S4096x512.Idx → EReal) (h x u : S4096x2048.Idx → EReal) (w1 : S512x2048.Idx → EReal)
    (w3 : S2048x2048.Idx → EReal) (P : S8x2048.Idx → EReal) : S4096x2048.Idx → EReal :=
  fun j => Cert.Spec.blend (h j) ((∑ k : Fin 512, inp (ix2 (row j) k) * w1 (ix2 k (col j)))
    + (∑ k : Fin 2048, (Cert.Spec.synU (h (ix2 (row j) k)) (u (ix2 (row j) k)) (P (ix2 (1 : Fin 8) k)) (P (ix2 (3 : Fin 8) k)) (P (ix2 (4 : Fin 8) k))
        * Cert.Spec.synX (h (ix2 (row j) k)) (x (ix2 (row j) k)) (u (ix2 (row j) k)) (P (ix2 (2 : Fin 8) k)) (P (ix2 (4 : Fin 8) k))
        * h (ix2 (row j) k)) * w3 (ix2 k (col j)))
    + P (ix2 (0 : Fin 8) (col j)))

/-! ## Where the blocks sit -/

/-- The block index maps over the grid: the row-blocked windows move down one block of rows per point and stay in column
    block 0; the weight matrices and the parameter table are staged whole at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- A row of the staged parameter table, loaded on its own, reads the table at that row. -/
theorem ld_P0 (x6 : Vec Ideal S8x2048 .f32) (q : Fin 2048) : View.ld x6 r1_P0 (ix2 (0 : Fin 1) q) = x6 (ix2 (0 : Fin 8) q) := by
  show x6 (r1_P0.idx (ix2 (0 : Fin 1) q)) = _
  congr 1 <;> (funext a; apply Fin.ext; match a with
  | ⟨0, _⟩ => show 0 + 1 * 0 = 0; omega
  | ⟨1, _⟩ => show 0 + 1 * q.val = q.val; omega)
theorem ld_P1 (x6 : Vec Ideal S8x2048 .f32) (q : Fin 2048) : View.ld x6 r1_P1 (ix2 (0 : Fin 1) q) = x6 (ix2 (1 : Fin 8) q) := by
  show x6 (r1_P1.idx (ix2 (0 : Fin 1) q)) = _
  congr 1 <;> (funext a; apply Fin.ext; match a with
  | ⟨0, _⟩ => show 1 + 1 * 0 = 1; omega
  | ⟨1, _⟩ => show 0 + 1 * q.val = q.val; omega)
theorem ld_P2 (x6 : Vec Ideal S8x2048 .f32) (q : Fin 2048) : View.ld x6 r1_P2 (ix2 (0 : Fin 1) q) = x6 (ix2 (2 : Fin 8) q) := by
  show x6 (r1_P2.idx (ix2 (0 : Fin 1) q)) = _
  congr 1 <;> (funext a; apply Fin.ext; match a with
  | ⟨0, _⟩ => show 2 + 1 * 0 = 2; omega
  | ⟨1, _⟩ => show 0 + 1 * q.val = q.val; omega)
theorem ld_P3 (x6 : Vec Ideal S8x2048 .f32) (q : Fin 2048) : View.ld x6 r1_P3 (ix2 (0 : Fin 1) q) = x6 (ix2 (3 : Fin 8) q) := by
  show x6 (r1_P3.idx (ix2 (0 : Fin 1) q)) = _
  congr 1 <;> (funext a; apply Fin.ext; match a with
  | ⟨0, _⟩ => show 3 + 1 * 0 = 3; omega
  | ⟨1, _⟩ => show 0 + 1 * q.val = q.val; omega)
theorem ld_P4 (x6 : Vec Ideal S8x2048 .f32) (q : Fin 2048) : View.ld x6 r1_P4 (ix2 (0 : Fin 1) q) = x6 (ix2 (4 : Fin 8) q) := by
  show x6 (r1_P4.idx (ix2 (0 : Fin 1) q)) = _
  congr 1 <;> (funext a; apply Fin.ext; match a with
  | ⟨0, _⟩ => show 4 + 1 * 0 = 4; omega
  | ⟨1, _⟩ => show 0 + 1 * q.val = q.val; omega)

/-! ## The new depression state (output window 8) -/

/-- The stored depression-state entry from the staged blocks: the parameter rows are read from the staged table. -/
theorem synX_blk (x1 x2 x3 : Vec Ideal S256x2048 .f32) (x6 : Vec Ideal S8x2048 .f32) (r : Fin 256) (q : Fin 2048) :
    k1_pay1 (k1_pay6 (F := Ideal) x1 x2 x3 (View.ld x6 r1_P2) (View.ld x6 r1_P4)) (ix2 r q)
      = Cert.Spec.synX (x1 (ix2 r q)) (x2 (ix2 r q)) (x3 (ix2 r q)) (x6 (ix2 (2 : Fin 8) q)) (x6 (ix2 (4 : Fin 8) q)) :=
  (Cert.KernelIdeal.Pay.synX_apply r q x1 x2 x3 (View.ld x6 r1_P2) (View.ld x6 r1_P4)).trans
    (by rw [ld_P2 x6 q, ld_P4 x6 q])

/-- WHAT POINT `t` WRITES BACK is block `t` of the new depression state of the arrays as the region finds them. -/
theorem flushed8_eq (c : Dev nD) (t : Fin cfg1.N) :
    (dat1 (F := Ideal) V c).flushed 8 t = ((cfg1.win 8).blk t).view.read (Elt Ideal)
      (SynXArr (V c main_arg1) (V c main_arg2) (V c main_arg3) (V c main_v13)) := by
  show (cfg1.win 8).cut (grid1.coords t) ((dat1 V c).after 8 t) = _
  rw [after1_8]
  unfold out1_8
  rw [View.canon_unit_zero hz]
  simp only [View.ld_unit_zero (S := S256x2048) hz]
  obtain ⟨e00, e01, e10, e11, e20, e21, e30, e31, e70, e71, e80, e81, e90, e91, e40, e41, e50, e51, e60, e61⟩ := idx_facts t
  funext y
  obtain ⟨r, q, rfl⟩ : ∃ (r : Fin 256) (q : Fin 2048), y = ix2 r q := ⟨y 0, y 1, eq_ix2 y⟩
  show k1_pay1 (k1_pay6 (iblk1 V c 1 t) (iblk1 V c 2 t) (iblk1 V c 3 t) (View.ld (iblk1 V c 6 t) r1_P2) (View.ld (iblk1 V c 6 t) r1_P4)) (ix2 r q)
    = SynXArr (V c main_arg1) (V c main_arg2) (V c main_arg3) (V c main_v13) (((cfg1.win 8).blk t).view.emb (ix2 r q))
  refine (synX_blk _ _ _ _ r q).trans ?_
  unfold SynXArr
  have h1 : iblk1 V c 1 t (ix2 r q) = V c main_arg1 (((cfg1.win 8).blk t).view.emb (ix2 r q)) := by
    show V c main_arg1 (((cfg1.win 1).blk t).view.emb (ix2 r q)) = _
    congr 1 <;> (funext a; apply Fin.ext; match a with
    | ⟨0, _⟩ => show win1_1.index t (0 : Fin 2) * 256 + 1 * r.val = win1_8.index t (0 : Fin 2) * 256 + 1 * r.val; omega
    | ⟨1, _⟩ => show win1_1.index t (1 : Fin 2) * 2048 + 1 * q.val = win1_8.index t (1 : Fin 2) * 2048 + 1 * q.val; omega)
  have h2 : iblk1 V c 2 t (ix2 r q) = V c main_arg2 (((cfg1.win 8).blk t).view.emb (ix2 r q)) := by
    show V c main_arg2 (((cfg1.win 2).blk t).view.emb (ix2 r q)) = _
    congr 1 <;> (funext a; apply Fin.ext; match a with
    | ⟨0, _⟩ => show win1_2.index t (0 : Fin 2) * 256 + 1 * r.val = win1_8.index t (0 : Fin 2) * 256 + 1 * r.val; omega
    | ⟨1, _⟩ => show win1_2.index t (1 : Fin 2) * 2048 + 1 * q.val = win1_8.index t (1 : Fin 2) * 2048 + 1 * q.val; omega)
  have h3 : iblk1 V c 3 t (ix2 r q) = V c main_arg3 (((cfg1.win 8).blk t).view.emb (ix2 r q)) := by
    show V c main_arg3 (((cfg1.win 3).blk t).view.emb (ix2 r q)) = _
    congr 1 <;> (funext a; apply Fin.ext; match a with
    | ⟨0, _⟩ => show win1_3.index t (0 : Fin 2) * 256 + 1 * r.val = win1_8.index t (0 : Fin 2) * 256 + 1 * r.val; omega
    | ⟨1, _⟩ => show win1_3.index t (1 : Fin 2) * 2048 + 1 * q.val = win1_8.index t (1 : Fin 2) * 2048 + 1 * q.val; omega)
  have h62 : iblk1 V c 6 t (ix2 (2 : Fin 8) q) = V c main_v13 (ix2 (2 : Fin 8) (col (((cfg1.win 8).blk t).view.emb (ix2 r q)))) := by
    show V c main_v13 (((cfg1.win 6).blk t).view.emb (ix2 (2 : Fin 8) q)) = _
    congr 1 <;> (funext a; apply Fin.ext; match a with
    | ⟨0, _⟩ => show win1_6.index t (0 : Fin 2) * 8 + 1 * 2 = 2; omega
    | ⟨1, _⟩ => show win1_6.index t (1 : Fin 2) * 2048 + 1 * q.val = win1_8.index t (1 : Fin 2) * 2048 + 1 * q.val; omega)
  have h64 : iblk1 V c 6 t (ix2 (4 : Fin 8) q) = V c main_v13 (ix2 (4 : Fin 8) (col (((cfg1.win 8).blk t).view.emb (ix2 r q)))) := by
    show V c main_v13 (((cfg1.win 6).blk t).view.emb (ix2 (4 : Fin 8) q)) = _
    congr 1 <;> (funext a; apply Fin.ext; match a with
    | ⟨0, _⟩ => show win1_6.index t (0 : Fin 2) * 8 + 1 * 4 = 4; omega
    | ⟨1, _⟩ => show win1_6.index t (1 : Fin 2) * 2048 + 1 * q.val = win1_8.index t (1 : Fin 2) * 2048 + 1 * q.val; omega)
  rw [h1, h2, h3, h62, h64]

/-- An index of the array is in point `t`'s block iff each coordinate is in the block's range on its axis. -/
theorem mem_blk8 (t : Fin cfg1.N) (i : S4096x2048.Idx) :
    i ∈ ((cfg1.win 8).blk t).view.set ↔ ∀ a : Fin 2, win1_8.index t a * S256x2048.size a ≤ (i a).val ∧ (i a).val < win1_8.index t a * S256x2048.size a + S256x2048.size a := by
  show i ∈ ((View.whole main_v14_1).slice (win1_8.rect t)).set ↔ _
  rw [View.set_slice_whole, Rect.mem_set_unit]
  exact Iff.rfl

/-- Row `i` lies in the block of the point `i / 256`, which writes back: the sixteen blocks tile the array. -/
theorem cover8 (i : S4096x2048.Idx) : ∃ t : Fin cfg1.N, (cfg1.win 8).flush t = true ∧ i ∈ ((cfg1.win 8).blk t).view.set := by
  have hi0 : (i 0).val < 4096 := idx2_lt0 i
  have hi1 : (i 1).val < 2048 := idx2_lt1 i
  have hN : grid1.N = 16 := N_1
  let t : Fin cfg1.N := ⟨(i 0).val / 256, by show (i 0).val / 256 < grid1.N; omega⟩
  obtain ⟨e00, e01, e10, e11, e20, e21, e30, e31, e70, e71, e80, e81, e90, e91, e40, e41, e50, e51, e60, e61⟩ := idx_facts t
  have e80' : win1_8.index t (0 : Fin 2) = (i 0).val / 256 := e80
  refine ⟨t, flush1_8 t, ?_⟩
  rw [mem_blk8]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 2048 ≤ (i 1).val ∧ (i 1).val < win1_8.index t (1 : Fin 2) * 2048 + 2048; omega

/-- THE ARRAY after region 1: the new depression state of the arrays the region found. -/
theorem final8 (c : Dev nD) : (dat1 (F := Ideal) V c).arrAt 8 cfg1.N
    = SynXArr (V c main_arg1) (V c main_arg2) (V c main_arg3) (V c main_v13) :=
  (dat1 V c).arrAt_eq_of_cover 8 _ (fun t _ => flushed8_eq V c t) (cover8)

/-! ## The new facilitation state (output window 9) -/

/-- The stored facilitation-state entry from the staged blocks: the parameter rows are read from the staged table. -/
theorem synU_blk (x1 x3 : Vec Ideal S256x2048 .f32) (x6 : Vec Ideal S8x2048 .f32) (r : Fin 256) (q : Fin 2048) :
    k1_pay2 x3 (k1_pay7 (F := Ideal) x1 x3 (View.ld x6 r1_P1) (View.ld x6 r1_P3) (View.ld x6 r1_P4)) (ix2 r q)
      = Cert.Spec.synU (x1 (ix2 r q)) (x3 (ix2 r q)) (x6 (ix2 (1 : Fin 8) q)) (x6 (ix2 (3 : Fin 8) q)) (x6 (ix2 (4 : Fin 8) q)) :=
  (Cert.KernelIdeal.Pay.synU_apply r q x1 x3 (View.ld x6 r1_P1) (View.ld x6 r1_P3) (View.ld x6 r1_P4)).trans
    (by rw [ld_P1 x6 q, ld_P3 x6 q, ld_P4 x6 q])

/-- WHAT POINT `t` WRITES BACK is block `t` of the new facilitation state of the arrays as the region finds them. -/
theorem flushed9_eq (c : Dev nD) (t : Fin cfg1.N) :
    (dat1 (F := Ideal) V c).flushed 9 t = ((cfg1.win 9).blk t).view.read (Elt Ideal)
      (SynUArr (V c main_arg1) (V c main_arg3) (V c main_v13)) := by
  show (cfg1.win 9).cut (grid1.coords t) ((dat1 V c).after 9 t) = _
  rw [after1_9]
  unfold out1_9
  rw [View.canon_unit_zero hz]
  simp only [View.ld_unit_zero (S := S256x2048) hz]
  obtain ⟨e00, e01, e10, e11, e20, e21, e30, e31, e70, e71, e80, e81, e90, e91, e40, e41, e50, e51, e60, e61⟩ := idx_facts t
  funext y
  obtain ⟨r, q, rfl⟩ : ∃ (r : Fin 256) (q : Fin 2048), y = ix2 r q := ⟨y 0, y 1, eq_ix2 y⟩
  show k1_pay2 (iblk1 V c 3 t) (k1_pay7 (iblk1 V c 1 t) (iblk1 V c 3 t) (View.ld (iblk1 V c 6 t) r1_P1) (View.ld (iblk1 V c 6 t) r1_P3) (View.ld (iblk1 V c 6 t) r1_P4)) (ix2 r q)
    = SynUArr (V c main_arg1) (V c main_arg3) (V c main_v13) (((cfg1.win 9).blk t).view.emb (ix2 r q))
  refine (synU_blk _ _ _ r q).trans ?_
  unfold SynUArr
  have h1 : iblk1 V c 1 t (ix2 r q) = V c main_arg1 (((cfg1.win 9).blk t).view.emb (ix2 r q)) := by
    show V c main_arg1 (((cfg1.win 1).blk t).view.emb (ix2 r q)) = _
    congr 1 <;> (funext a; apply Fin.ext; match a with
    | ⟨0, _⟩ => show win1_1.index t (0 : Fin 2) * 256 + 1 * r.val = win1_9.index t (0 : Fin 2) * 256 + 1 * r.val; omega
    | ⟨1, _⟩ => show win1_1.index t (1 : Fin 2) * 2048 + 1 * q.val = win1_9.index t (1 : Fin 2) * 2048 + 1 * q.val; omega)
  have h3 : iblk1 V c 3 t (ix2 r q) = V c main_arg3 (((cfg1.win 9).blk t).view.emb (ix2 r q)) := by
    show V c main_arg3 (((cfg1.win 3).blk t).view.emb (ix2 r q)) = _
    congr 1 <;> (funext a; apply Fin.ext; match a with
    | ⟨0, _⟩ => show win1_3.index t (0 : Fin 2) * 256 + 1 * r.val = win1_9.index t (0 : Fin 2) * 256 + 1 * r.val; omega
    | ⟨1, _⟩ => show win1_3.index t (1 : Fin 2) * 2048 + 1 * q.val = win1_9.index t (1 : Fin 2) * 2048 + 1 * q.val; omega)
  have h61 : iblk1 V c 6 t (ix2 (1 : Fin 8) q) = V c main_v13 (ix2 (1 : Fin 8) (col (((cfg1.win 9).blk t).view.emb (ix2 r q)))) := by
    show V c main_v13 (((cfg1.win 6).blk t).view.emb (ix2 (1 : Fin 8) q)) = _
    congr 1 <;> (funext a; apply Fin.ext; match a with
    | ⟨0, _⟩ => show win1_6.index t (0 : Fin 2) * 8 + 1 * 1 = 1; omega
    | ⟨1, _⟩ => show win1_6.index t (1 : Fin 2) * 2048 + 1 * q.val = win1_9.index t (1 : Fin 2) * 2048 + 1 * q.val; omega)
  have h63 : iblk1 V c 6 t (ix2 (3 : Fin 8) q) = V c main_v13 (ix2 (3 : Fin 8) (col (((cfg1.win 9).blk t).view.emb (ix2 r q)))) := by
    show V c main_v13 (((cfg1.win 6).blk t).view.emb (ix2 (3 : Fin 8) q)) = _
    congr 1 <;> (funext a; apply Fin.ext; match a with
    | ⟨0, _⟩ => show win1_6.index t (0 : Fin 2) * 8 + 1 * 3 = 3; omega
    | ⟨1, _⟩ => show win1_6.index t (1 : Fin 2) * 2048 + 1 * q.val = win1_9.index t (1 : Fin 2) * 2048 + 1 * q.val; omega)
  have h64 : iblk1 V c 6 t (ix2 (4 : Fin 8) q) = V c main_v13 (ix2 (4 : Fin 8) (col (((cfg1.win 9).blk t).view.emb (ix2 r q)))) := by
    show V c main_v13 (((cfg1.win 6).blk t).view.emb (ix2 (4 : Fin 8) q)) = _
    congr 1 <;> (funext a; apply Fin.ext; match a with
    | ⟨0, _⟩ => show win1_6.index t (0 : Fin 2) * 8 + 1 * 4 = 4; omega
    | ⟨1, _⟩ => show win1_6.index t (1 : Fin 2) * 2048 + 1 * q.val = win1_9.index t (1 : Fin 2) * 2048 + 1 * q.val; omega)
  rw [h1, h3, h61, h63, h64]

/-- An index of the array is in point `t`'s block iff each coordinate is in the block's range on its axis. -/
theorem mem_blk9 (t : Fin cfg1.N) (i : S4096x2048.Idx) :
    i ∈ ((cfg1.win 9).blk t).view.set ↔ ∀ a : Fin 2, win1_9.index t a * S256x2048.size a ≤ (i a).val ∧ (i a).val < win1_9.index t a * S256x2048.size a + S256x2048.size a := by
  show i ∈ ((View.whole main_v14_2).slice (win1_9.rect t)).set ↔ _
  rw [View.set_slice_whole, Rect.mem_set_unit]
  exact Iff.rfl

/-- Row `i` lies in the block of the point `i / 256`, which writes back: the sixteen blocks tile the array. -/
theorem cover9 (i : S4096x2048.Idx) : ∃ t : Fin cfg1.N, (cfg1.win 9).flush t = true ∧ i ∈ ((cfg1.win 9).blk t).view.set := by
  have hi0 : (i 0).val < 4096 := idx2_lt0 i
  have hi1 : (i 1).val < 2048 := idx2_lt1 i
  have hN : grid1.N = 16 := N_1
  let t : Fin cfg1.N := ⟨(i 0).val / 256, by show (i 0).val / 256 < grid1.N; omega⟩
  obtain ⟨e00, e01, e10, e11, e20, e21, e30, e31, e70, e71, e80, e81, e90, e91, e40, e41, e50, e51, e60, e61⟩ := idx_facts t
  have e90' : win1_9.index t (0 : Fin 2) = (i 0).val / 256 := e90
  refine ⟨t, flush1_9 t, ?_⟩
  rw [mem_blk9]
  intro a
  match a with
  | ⟨0, _⟩ => show win1_9.index t (0 : Fin 2) * 256 ≤ (i 0).val ∧ (i 0).val < win1_9.index t (0 : Fin 2) * 256 + 256; omega
  | ⟨1, _⟩ => show win1_9.index t (1 : Fin 2) * 2048 ≤ (i 1).val ∧ (i 1).val < win1_9.index t (1 : Fin 2) * 2048 + 2048; omega

/-- THE ARRAY after region 1: the new facilitation state of the arrays the region found. -/
theorem final9 (c : Dev nD) : (dat1 (F := Ideal) V c).arrAt 9 cfg1.N
    = SynUArr (V c main_arg1) (V c main_arg3) (V c main_v13) :=
  (dat1 V c).arrAt_eq_of_cover 9 _ (fun t _ => flushed9_eq V c t) (cover9)

/-! ## The new activity (output window 7) -/

/-- The stored activity entry from the staged blocks: the parameter rows are read from the staged table. -/
theorem hOut_blk (x0 : Vec Ideal S256x512 .f32) (x1 x2 x3 : Vec Ideal S256x2048 .f32) (x4 : Vec Ideal S512x2048 .bf16)
    (x5 : Vec Ideal S2048x2048 .bf16) (x6 : Vec Ideal S8x2048 .f32) (r : Fin 256) (g : Fin 2048) :
    k1_pay3 (F := Ideal) x1 x3 (k1_pay4 (View.ld x6 r1_P0)) (k1_pay6 x1 x2 x3 (View.ld x6 r1_P2) (View.ld x6 r1_P4))
        (k1_pay7 x1 x3 (View.ld x6 r1_P1) (View.ld x6 r1_P3) (View.ld x6 r1_P4)) x0 x4 x5 (ix2 r g)
      = Cert.Spec.blend (x1 (ix2 r g))
          ((∑ k : Fin 512, x0 (ix2 r k) * x4 (ix2 k g))
            + (∑ k : Fin 2048, (Cert.Spec.synU (x1 (ix2 r k)) (x3 (ix2 r k)) (x6 (ix2 (1 : Fin 8) k)) (x6 (ix2 (3 : Fin 8) k)) (x6 (ix2 (4 : Fin 8) k))
                  * Cert.Spec.synX (x1 (ix2 r k)) (x2 (ix2 r k)) (x3 (ix2 r k)) (x6 (ix2 (2 : Fin 8) k)) (x6 (ix2 (4 : Fin 8) k)) * x1 (ix2 r k))
                * x5 (ix2 k g))
            + x6 (ix2 (0 : Fin 8) g)) :=
  (Cert.KernelIdeal.Pay.hOut_apply r g x1 x2 x3 (View.ld x6 r1_P0) (View.ld x6 r1_P1) (View.ld x6 r1_P2) (View.ld x6 r1_P3)
      (View.ld x6 r1_P4) x0 x4 x5).trans
    (by simp only [ld_P0 x6, ld_P1 x6, ld_P2 x6, ld_P3 x6, ld_P4 x6])

/-- WHAT POINT `t` WRITES BACK is block `t` of the new activity of the arrays as the region finds them. -/
theorem flushed7_eq (c : Dev nD) (t : Fin cfg1.N) :
    (dat1 (F := Ideal) V c).flushed 7 t = ((cfg1.win 7).blk t).view.read (Elt Ideal)
      (HOutArr (V c main_arg0) (V c main_arg1) (V c main_arg2) (V c main_arg3) (V c main_v1) (V c main_v3) (V c main_v13)) := by
  show (cfg1.win 7).cut (grid1.coords t) ((dat1 V c).after 7 t) = _
  rw [after1_7]
  unfold out1_7
  rw [View.canon_unit_zero hz]
  simp only [View.ld_unit_zero (S := S256x2048) hz, View.ld_unit_zero (S := S256x512) hz,
    View.ld_unit_zero (S := S512x2048) hz, View.ld_unit_zero (S := S2048x2048) hz]
  obtain ⟨e00, e01, e10, e11, e20, e21, e30, e31, e70, e71, e80, e81, e90, e91, e40, e41, e50, e51, e60, e61⟩ := idx_facts t
  funext y
  obtain ⟨r, g, rfl⟩ : ∃ (r : Fin 256) (g : Fin 2048), y = ix2 r g := ⟨y 0, y 1, eq_ix2 y⟩
  show k1_pay3 (iblk1 V c 1 t) (iblk1 V c 3 t) (k1_pay4 (View.ld (iblk1 V c 6 t) r1_P0))
      (k1_pay6 (iblk1 V c 1 t) (iblk1 V c 2 t) (iblk1 V c 3 t) (View.ld (iblk1 V c 6 t) r1_P2) (View.ld (iblk1 V c 6 t) r1_P4))
      (k1_pay7 (iblk1 V c 1 t) (iblk1 V c 3 t) (View.ld (iblk1 V c 6 t) r1_P1) (View.ld (iblk1 V c 6 t) r1_P3) (View.ld (iblk1 V c 6 t) r1_P4))
      (iblk1 V c 0 t) (iblk1 V c 4 t) (iblk1 V c 5 t) (ix2 r g)
    = HOutArr (V c main_arg0) (V c main_arg1) (V c main_arg2) (V c main_arg3) (V c main_v1) (V c main_v3) (V c main_v13) (((cfg1.win 7).blk t).view.emb (ix2 r g))
  refine (hOut_blk _ _ _ _ _ _ _ r g).trans ?_
  unfold HOutArr
  have hA : iblk1 V c 1 t (ix2 r g) = V c main_arg1 (((cfg1.win 7).blk t).view.emb (ix2 r g)) := by
    show V c main_arg1 (((cfg1.win 1).blk t).view.emb (ix2 r g)) = _
    congr 1 <;> (funext a; apply Fin.ext; match a with
    | ⟨0, _⟩ => show win1_1.index t (0 : Fin 2) * 256 + 1 * r.val = win1_7.index t (0 : Fin 2) * 256 + 1 * r.val; omega
    | ⟨1, _⟩ => show win1_1.index t (1 : Fin 2) * 2048 + 1 * g.val = win1_7.index t (1 : Fin 2) * 2048 + 1 * g.val; omega)
  have hI : ∀ k : Fin 512, iblk1 V c 0 t (ix2 r k) = V c main_arg0 (ix2 (row (((cfg1.win 7).blk t).view.emb (ix2 r g))) k) := fun k => by
    show V c main_arg0 (((cfg1.win 0).blk t).view.emb (ix2 r k)) = _
    congr 1 <;> (funext a; apply Fin.ext; match a with
    | ⟨0, _⟩ => show win1_0.index t (0 : Fin 2) * 256 + 1 * r.val = win1_7.index t (0 : Fin 2) * 256 + 1 * r.val; omega
    | ⟨1, _⟩ => show win1_0.index t (1 : Fin 2) * 512 + 1 * k.val = k.val; omega)
  have hW : ∀ k : Fin 512, iblk1 V c 4 t (ix2 k g) = V c main_v1 (ix2 k (col (((cfg1.win 7).blk t).view.emb (ix2 r g)))) := fun k => by
    show V c main_v1 (((cfg1.win 4).blk t).view.emb (ix2 k g)) = _
    congr 1 <;> (funext a; apply Fin.ext; match a with
    | ⟨0, _⟩ => show win1_4.index t (0 : Fin 2) * 512 + 1 * k.val = k.val; omega
    | ⟨1, _⟩ => show win1_4.index t (1 : Fin 2) * 2048 + 1 * g.val = win1_7.index t (1 : Fin 2) * 2048 + 1 * g.val; omega)
  have hR1 : ∀ k : Fin 2048, iblk1 V c 1 t (ix2 r k) = V c main_arg1 (ix2 (row (((cfg1.win 7).blk t).view.emb (ix2 r g))) k) := fun k => by
    show V c main_arg1 (((cfg1.win 1).blk t).view.emb (ix2 r k)) = _
    congr 1 <;> (funext a; apply Fin.ext; match a with
    | ⟨0, _⟩ => show win1_1.index t (0 : Fin 2) * 256 + 1 * r.val = win1_7.index t (0 : Fin 2) * 256 + 1 * r.val; omega
    | ⟨1, _⟩ => show win1_1.index t (1 : Fin 2) * 2048 + 1 * k.val = k.val; omega)
  have hR2 : ∀ k : Fin 2048, iblk1 V c 2 t (ix2 r k) = V c main_arg2 (ix2 (row (((cfg1.win 7).blk t).view.emb (ix2 r g))) k) := fun k => by
    show V c main_arg2 (((cfg1.win 2).blk t).view.emb (ix2 r k)) = _
    congr 1 <;> (funext a; apply Fin.ext; match a with
    | ⟨0, _⟩ => show win1_2.index t (0 : Fin 2) * 256 + 1 * r.val = win1_7.index t (0 : Fin 2) * 256 + 1 * r.val; omega
    | ⟨1, _⟩ => show win1_2.index t (1 : Fin 2) * 2048 + 1 * k.val = k.val; omega)
  have hR3 : ∀ k : Fin 2048, iblk1 V c 3 t (ix2 r k) = V c main_arg3 (ix2 (row (((cfg1.win 7).blk t).view.emb (ix2 r g))) k) := fun k => by
    show V c main_arg3 (((cfg1.win 3).blk t).view.emb (ix2 r k)) = _
    congr 1 <;> (funext a; apply Fin.ext; match a with
    | ⟨0, _⟩ => show win1_3.index t (0 : Fin 2) * 256 + 1 * r.val = win1_7.index t (0 : Fin 2) * 256 + 1 * r.val; omega
    | ⟨1, _⟩ => show win1_3.index t (1 : Fin 2) * 2048 + 1 * k.val = k.val; omega)
  have hP : ∀ (b : Fin 8) (k : Fin 2048), iblk1 V c 6 t (ix2 b k) = V c main_v13 (ix2 b k) := fun b k => by
    show V c main_v13 (((cfg1.win 6).blk t).view.emb (ix2 b k)) = _
    congr 1 <;> (funext a; apply Fin.ext; match a with
    | ⟨0, _⟩ => show win1_6.index t (0 : Fin 2) * 8 + 1 * b.val = b.val; omega
    | ⟨1, _⟩ => show win1_6.index t (1 : Fin 2) * 2048 + 1 * k.val = k.val; omega)
  have hH : ∀ k : Fin 2048, iblk1 V c 5 t (ix2 k g) = V c main_v3 (ix2 k (col (((cfg1.win 7).blk t).view.emb (ix2 r g)))) := fun k => by
    show V c main_v3 (((cfg1.win 5).blk t).view.emb (ix2 k g)) = _
    congr 1 <;> (funext a; apply Fin.ext; match a with
    | ⟨0, _⟩ => show win1_5.index t (0 : Fin 2) * 2048 + 1 * k.val = k.val; omega
    | ⟨1, _⟩ => show win1_5.index t (1 : Fin 2) * 2048 + 1 * g.val = win1_7.index t (1 : Fin 2) * 2048 + 1 * g.val; omega)
  have hB : iblk1 V c 6 t (ix2 (0 : Fin 8) g) = V c main_v13 (ix2 (0 : Fin 8) (col (((cfg1.win 7).blk t).view.emb (ix2 r g)))) := by
    show V c main_v13 (((cfg1.win 6).blk t).view.emb (ix2 (0 : Fin 8) g)) = _
    congr 1 <;> (funext a; apply Fin.ext; match a with
    | ⟨0, _⟩ => show win1_6.index t (0 : Fin 2) * 8 + 1 * 0 = 0; omega
    | ⟨1, _⟩ => show win1_6.index t (1 : Fin 2) * 2048 + 1 * g.val = win1_7.index t (1 : Fin 2) * 2048 + 1 * g.val; omega)
  rw [hA, hB]
  simp only [hI, hW, hR1, hR2, hR3, hP, hH]

/-- An index of the array is in point `t`'s block iff each coordinate is in the block's range on its axis. -/
theorem mem_blk7 (t : Fin cfg1.N) (i : S4096x2048.Idx) :
    i ∈ ((cfg1.win 7).blk t).view.set ↔ ∀ a : Fin 2, win1_7.index t a * S256x2048.size a ≤ (i a).val ∧ (i a).val < win1_7.index t a * S256x2048.size a + S256x2048.size a := by
  show i ∈ ((View.whole main_v14_0).slice (win1_7.rect t)).set ↔ _
  rw [View.set_slice_whole, Rect.mem_set_unit]
  exact Iff.rfl

/-- Row `i` lies in the block of the point `i / 256`, which writes back: the sixteen blocks tile the array. -/
theorem cover7 (i : S4096x2048.Idx) : ∃ t : Fin cfg1.N, (cfg1.win 7).flush t = true ∧ i ∈ ((cfg1.win 7).blk t).view.set := by
  have hi0 : (i 0).val < 4096 := idx2_lt0 i
  have hi1 : (i 1).val < 2048 := idx2_lt1 i
  have hN : grid1.N = 16 := N_1
  let t : Fin cfg1.N := ⟨(i 0).val / 256, by show (i 0).val / 256 < grid1.N; omega⟩
  obtain ⟨e00, e01, e10, e11, e20, e21, e30, e31, e70, e71, e80, e81, e90, e91, e40, e41, e50, e51, e60, e61⟩ := idx_facts t
  have e70' : win1_7.index t (0 : Fin 2) = (i 0).val / 256 := e70
  refine ⟨t, flush1_7 t, ?_⟩
  rw [mem_blk7]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 2048 ≤ (i 1).val ∧ (i 1).val < win1_7.index t (1 : Fin 2) * 2048 + 2048; omega

/-- THE ARRAY after region 1: the new activity of the arrays the region found. -/
theorem final7 (c : Dev nD) : (dat1 (F := Ideal) V c).arrAt 7 cfg1.N
    = HOutArr (V c main_arg0) (V c main_arg1) (V c main_arg2) (V c main_arg3) (V c main_v1) (V c main_v3) (V c main_v13) :=
  (dat1 V c).arrAt_eq_of_cover 7 _ (fun t _ => flushed7_eq V c t) (cover7)

end Cert.KernelIdeal.Blocks1

end
-- ==== Proof.HostVals.lean ====
/-
  What the host operations before the two launches leave in the arrays the launches read, entry by
  entry, on the extended reals: the rectified input weights (kept as they are by the change of format),
  the excitatory/inhibitory signs laid as one column, and the per-unit parameters packed as the rows of
  one array of eight rows. The contents before the operations are arbitrary.
-/
import proofs.«151164_j20787641712912_2_alg».proof.Proof.Gen.KernelIdeal.Launch
import proofs.«151164_j20787641712912_2_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostVals

open Idealize.ShloMosaic Idealize.ShloMosaic.ValueIdx Idealize.SL.Sem Cert.KernelIdeal

/-! ## The packed per-unit parameters

The eight rows of the packed array are, in order, the bias, the two recovery rates, the baseline
release, the switch, and three rows of zeros; each parameter is a vector of length 2048 laid as one row. -/

/-- A vector of length `b` laid as the one row of a `[1, b]` array reads, at `(0, c)`, its entry `c`. -/
theorem rowOf_apply {α : Type} {b : ℕ} (v : (⟨1, ![b]⟩ : Shape).Idx → α)
    (h : (⟨1, ![b]⟩ : Shape).BroadcastsInDim ⟨2, ![1, b]⟩ ![1]) (c : Fin b) :
    broadcastInDim ⟨2, ![1, b]⟩ ![1] h v (ix2 (0 : Fin 1) c) = v (ix1 c) := by
  refine broadcastInDim_apply _ h v (ix2 (0 : Fin 1) c) (ix1 c) fun ax => ?_
  match ax with
  | ⟨0, _⟩ =>
    show c.val = if b = 1 then 0 else c.val
    split
    · have := c.isLt; omega
    · rfl

/-- Eight rows of length 2048 stacked along the first axis: row `k` of the stack is the `k`-th row. -/
theorem stack8_apply {α : Type} (x0 x1 x2 x3 x4 x5 x6 x7 : S1x2048.Idx → α)
    (h : Shape.Concatenates (([⟨S1x2048, x0⟩, ⟨S1x2048, x1⟩, ⟨S1x2048, x2⟩, ⟨S1x2048, x3⟩, ⟨S1x2048, x4⟩, ⟨S1x2048, x5⟩,
      ⟨S1x2048, x6⟩, ⟨S1x2048, x7⟩] : List ((s : Shape) × (s.Idx → α))).map (·.1)) S8x2048 0)
    (k : Fin 8) (q : Fin 2048) :
    concatenate S8x2048 0 [⟨S1x2048, x0⟩, ⟨S1x2048, x1⟩, ⟨S1x2048, x2⟩, ⟨S1x2048, x3⟩, ⟨S1x2048, x4⟩, ⟨S1x2048, x5⟩,
      ⟨S1x2048, x6⟩, ⟨S1x2048, x7⟩] h (ix2 k q) = (![x0, x1, x2, x3, x4, x5, x6, x7] k) (ix2 (0 : Fin 1) q) := by
  have hi : ∀ {k : Fin 8} (b : Fin S1x2048.rank), b.cast (rfl : S1x2048.rank = S8x2048.rank) ≠ 0 →
      ((ix2 (0 : Fin 1) q : S1x2048.Idx) b).val = ((ix2 k q : S8x2048.Idx) (b.cast rfl)).val := fun b hb => by
    match b with
    | ⟨0, _⟩ => exact absurd rfl hb
    | ⟨1, _⟩ => rfl
  match k with
  | ⟨0, _⟩ => exact concatenate_apply_piece 0 _ h _ 0 (by simp) S1x2048 x0 rfl rfl 0 rfl (ix2 (0 : Fin 1) q) hi rfl
  | ⟨1, _⟩ => exact concatenate_apply_piece 0 _ h _ 1 (by simp) S1x2048 x1 rfl rfl 1 rfl (ix2 (0 : Fin 1) q) hi rfl
  | ⟨2, _⟩ => exact concatenate_apply_piece 0 _ h _ 2 (by simp) S1x2048 x2 rfl rfl 2 rfl (ix2 (0 : Fin 1) q) hi rfl
  | ⟨3, _⟩ => exact concatenate_apply_piece 0 _ h _ 3 (by simp) S1x2048 x3 rfl rfl 3 rfl (ix2 (0 : Fin 1) q) hi rfl
  | ⟨4, _⟩ => exact concatenate_apply_piece 0 _ h _ 4 (by simp) S1x2048 x4 rfl rfl 4 rfl (ix2 (0 : Fin 1) q) hi rfl
  | ⟨5, _⟩ => exact concatenate_apply_piece 0 _ h _ 5 (by simp) S1x2048 x5 rfl rfl 5 rfl (ix2 (0 : Fin 1) q) hi rfl
  | ⟨6, _⟩ => exact concatenate_apply_piece 0 _ h _ 6 (by simp) S1x2048 x6 rfl rfl 6 rfl (ix2 (0 : Fin 1) q) hi rfl
  | ⟨7, _⟩ => exact concatenate_apply_piece 0 _ h _ 7 (by simp) S1x2048 x7 rfl rfl 7 rfl (ix2 (0 : Fin 1) q) hi rfl

variable (W : Valuation τ sig (Elt Ideal))

/-- Row 0 of the packed array is parameter vector the bias. -/
theorem v13_row0 (q : Fin 2048) :
    (StableHlo.after Gen.hostOps1 W (Proc.devRef .tc main_v13) : S8x2048.Idx → EReal) (ix2 0 q)
      = (W (Proc.devRef .tc main_arg6) : S2048.Idx → EReal) (ix1 q) := by
  simp only [Gen.hostOps1, StableHlo.after_cons, StableHlo.after_nil]
  rw [StableHlo.nary_result]
  refine (stack8_apply _ _ _ _ _ _ _ _ _ 0 q).trans ?_
  dsimp only [Matrix.cons_val]
  repeat (first
    | rw [StableHlo.nullary_result] | rw [StableHlo.unary_result]
    | (rw [StableHlo.nullary_result_ne]; rotate_left; decide)
    | (rw [StableHlo.unary_result_ne]; rotate_left; decide))
  exact rowOf_apply _ _ q

/-- Row 1 of the packed array is parameter vector the facilitation rate. -/
theorem v13_row1 (q : Fin 2048) :
    (StableHlo.after Gen.hostOps1 W (Proc.devRef .tc main_v13) : S8x2048.Idx → EReal) (ix2 1 q)
      = (W (Proc.devRef .tc main_arg9) : S2048.Idx → EReal) (ix1 q) := by
  simp only [Gen.hostOps1, StableHlo.after_cons, StableHlo.after_nil]
  rw [StableHlo.nary_result]
  refine (stack8_apply _ _ _ _ _ _ _ _ _ 1 q).trans ?_
  dsimp only [Matrix.cons_val]
  repeat (first
    | rw [StableHlo.nullary_result] | rw [StableHlo.unary_result]
    | (rw [StableHlo.nullary_result_ne]; rotate_left; decide)
    | (rw [StableHlo.unary_result_ne]; rotate_left; decide))
  exact rowOf_apply _ _ q

/-- Row 2 of the packed array is parameter vector the depression recovery rate. -/
theorem v13_row2 (q : Fin 2048) :
    (StableHlo.after Gen.hostOps1 W (Proc.devRef .tc main_v13) : S8x2048.Idx → EReal) (ix2 2 q)
      = (W (Proc.devRef .tc main_arg10) : S2048.Idx → EReal) (ix1 q) := by
  simp only [Gen.hostOps1, StableHlo.after_cons, StableHlo.after_nil]
  rw [StableHlo.nary_result]
  refine (stack8_apply _ _ _ _ _ _ _ _ _ 2 q).trans ?_
  dsimp only [Matrix.cons_val]
  repeat (first
    | rw [StableHlo.nullary_result] | rw [StableHlo.unary_result]
    | (rw [StableHlo.nullary_result_ne]; rotate_left; decide)
    | (rw [StableHlo.unary_result_ne]; rotate_left; decide))
  exact rowOf_apply _ _ q

/-- Row 3 of the packed array is parameter vector the baseline release. -/
theorem v13_row3 (q : Fin 2048) :
    (StableHlo.after Gen.hostOps1 W (Proc.devRef .tc main_v13) : S8x2048.Idx → EReal) (ix2 3 q)
      = (W (Proc.devRef .tc main_arg11) : S2048.Idx → EReal) (ix1 q) := by
  simp only [Gen.hostOps1, StableHlo.after_cons, StableHlo.after_nil]
  rw [StableHlo.nary_result]
  refine (stack8_apply _ _ _ _ _ _ _ _ _ 3 q).trans ?_
  dsimp only [Matrix.cons_val]
  repeat (first
    | rw [StableHlo.nullary_result] | rw [StableHlo.unary_result]
    | (rw [StableHlo.nullary_result_ne]; rotate_left; decide)
    | (rw [StableHlo.unary_result_ne]; rotate_left; decide))
  exact rowOf_apply _ _ q

/-- Row 4 of the packed array is parameter vector the switch. -/
theorem v13_row4 (q : Fin 2048) :
    (StableHlo.after Gen.hostOps1 W (Proc.devRef .tc main_v13) : S8x2048.Idx → EReal) (ix2 4 q)
      = (W (Proc.devRef .tc main_arg12) : S2048.Idx → EReal) (ix1 q) := by
  simp only [Gen.hostOps1, StableHlo.after_cons, StableHlo.after_nil]
  rw [StableHlo.nary_result]
  refine (stack8_apply _ _ _ _ _ _ _ _ _ 4 q).trans ?_
  dsimp only [Matrix.cons_val]
  repeat (first
    | rw [StableHlo.nullary_result] | rw [StableHlo.unary_result]
    | (rw [StableHlo.nullary_result_ne]; rotate_left; decide)
    | (rw [StableHlo.unary_result_ne]; rotate_left; decide))
  exact rowOf_apply _ _ q

/-! ## The rectified input weights -/

/-- The input weights after the host operations: rectified, and kept by the change of format. -/
theorem v1_apply (k : Fin 512) (g : Fin 2048) :
    (StableHlo.after Gen.hostOps0_1 (StableHlo.after Gen.hostOps0 W) (Proc.devRef .tc main_v1) : S512x2048.Idx → EReal) (ix2 k g)
      = @max EReal _ ((W (Proc.devRef .tc main_arg4) : S512x2048.Idx → EReal) (ix2 k g)) Cert.Spec.c0 := by
  simp only [Gen.hostOps0_1, Gen.hostOps0, StableHlo.after_cons, StableHlo.after_nil]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rfl

/-! ## The signs as one column -/

/-- A vector of length `a` cast to one column `[a, 1]` reads, at `(p, 0)`, its entry `p`. -/
theorem colOf_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    rw [Nat.mul_one, Nat.add_zero])

/-- The column of signs after the host operations is the sign vector, entry by entry. -/
theorem v2_apply (k : Fin 2048) :
    (StableHlo.after Gen.hostOps0_1 (StableHlo.after Gen.hostOps0 W) (Proc.devRef .tc main_v2) : S2048x1.Idx → EReal) (ix2 k 0)
      = (W (Proc.devRef .tc main_arg7) : S2048.Idx → EReal) (ix1 k) := by
  simp only [Gen.hostOps0_1, Gen.hostOps0, StableHlo.after_cons, StableHlo.after_nil]
  rw [StableHlo.reshape_result]
  repeat (first
    | (rw [StableHlo.nullary_result_ne]; rotate_left; decide)
    | (rw [StableHlo.unary_result_ne]; rotate_left; decide)
    | (rw [StableHlo.binary_result_ne]; rotate_left; decide))
  exact colOf_apply _ Gen.shapeCasts_S2048_S2048x1 k

end Cert.KernelIdeal.HostVals

end
-- ==== Proof.RefSpec.lean ====
/-
  The reference program read entry by entry is the specification.

  Each of the reference's three results is a composition of pointwise operations, broadcasts of a per-unit
  vector along the batch axis (or, for the sign vector, along the columns of the recurrent matrix), and two
  contractions. Read at the entry (p, q), a broadcast per-unit vector is the vector's entry q, a pointwise
  operation is the same operation on the entries, and a contraction is the sum over the contracted axis of
  the products of the entries (p, k) and (k, q). Written out, the entry is literally the specification's
  expression: the same operations on the same entries in the same order, with the same constants.
-/
import proofs.«151164_j20787641712912_2_alg».proof.Proof.Gen.ReferenceIdeal.Read
import proofs.«151164_j20787641712912_2_alg».proof.Proof.Spec

noncomputable section

open scoped BigOperators

namespace Cert.RefSpec

open Cert.ReferenceIdeal Cert.ReferenceIdeal.Read Idealize.ShloMosaic Idealize.ShloMosaic.ValueIdx

/-! ## Where the broadcasts and the contractions read their operands -/

/- A per-unit vector broadcast along the batch axis is read, at the entry (p, q), at q. -/
theorem row_v3 (p : Fin 4096) (q : Fin 2048) :
    idx_main_v2 (idx_main_v3 (ix2 p q)) = ix1 q :=
  funext fun a => Fin.ext (by match a with | ⟨0, _⟩ => rfl)
theorem row_v11 (p : Fin 4096) (q : Fin 2048) :
    idx_main_v10 (idx_main_v11 (ix2 p q)) = ix1 q :=
  funext fun a => Fin.ext (by match a with | ⟨0, _⟩ => rfl)
theorem row_v15 (p : Fin 4096) (q : Fin 2048) :
    idx_main_v14 (idx_main_v15 (ix2 p q)) = ix1 q :=
  funext fun a => Fin.ext (by match a with | ⟨0, _⟩ => rfl)
theorem row_v18 (p : Fin 4096) (q : Fin 2048) :
    idx_main_v17 (idx_main_v18 (ix2 p q)) = ix1 q :=
  funext fun a => Fin.ext (by match a with | ⟨0, _⟩ => rfl)
theorem row_v25 (p : Fin 4096) (q : Fin 2048) :
    idx_main_v24 (idx_main_v25 (ix2 p q)) = ix1 q :=
  funext fun a => Fin.ext (by match a with | ⟨0, _⟩ => rfl)
theorem row_v30 (p : Fin 4096) (q : Fin 2048) :
    idx_main_v29 (idx_main_v30 (ix2 p q)) = ix1 q :=
  funext fun a => Fin.ext (by match a with | ⟨0, _⟩ => rfl)
theorem row_v47 (p : Fin 4096) (q : Fin 2048) :
    idx_main_v46 (idx_main_v47 (ix2 p q)) = ix1 q :=
  funext fun a => Fin.ext (by match a with | ⟨0, _⟩ => rfl)

/- The sign vector broadcast along the columns of the recurrent matrix is read, at the entry (k, g), at k. -/
theorem col_v39 (k g : Fin 2048) :
    idx_main_v37 (idx_main_v39 (ix2 k g)) = ix1 k :=
  funext fun a => Fin.ext (by match a with | ⟨0, _⟩ => rfl)

/- The contractions pair the left entry (p, k) with the right entry (k, g). -/
theorem lidx_v43 (p : Fin 4096) (g : Fin 2048) (k : Fin 512) :
    lidx_main_v43 (ix2 p g) k = ix2 p k :=
  funext fun a => Fin.ext (by match a with | ⟨0, _⟩ => rfl | ⟨1, _⟩ => rfl)
theorem ridx_v43 (p : Fin 4096) (g : Fin 2048) (k : Fin 512) :
    ridx_main_v43 (ix2 p g) k = ix2 k g :=
  funext fun a => Fin.ext (by match a with | ⟨0, _⟩ => rfl | ⟨1, _⟩ => rfl)
theorem lidx_v44 (p : Fin 4096) (g : Fin 2048) (k : Fin 2048) :
    lidx_main_v44 (ix2 p g) k = ix2 p k :=
  funext fun a => Fin.ext (by match a with | ⟨0, _⟩ => rfl | ⟨1, _⟩ => rfl)
theorem ridx_v44 (p : Fin 4096) (g : Fin 2048) (k : Fin 2048) :
    ridx_main_v44 (ix2 p g) k = ix2 k g :=
  funext fun a => Fin.ext (by match a with | ⟨0, _⟩ => rfl | ⟨1, _⟩ => rfl)

/-! ## The two synaptic states -/

/-- The reference's new depression state at (p, q) is the specification's. -/
theorem synX_eq (x1 x2 x3 : (⟨S4096x2048, .f32⟩ : BufTy).Contents (Elt Ideal))
    (x10 x12 : (⟨S2048, .f32⟩ : BufTy).Contents (Elt Ideal)) (p : Fin 4096) (q : Fin 2048) :
    val_main_v33 (F := Ideal) x1 x2 x3 x10 x12 (ix2 p q) = Cert.Spec.SynX x1 x2 x3 x10 x12 p q := by
  simp only [val_main_v33_apply, val_main_call0_v4_apply, val_main_call0_v3_apply, val_main_cst_4_apply,
    val_main_call0_v2_apply, val_main_call0_v1_apply, val_main_call0_v0_apply, val_main_cst_3_apply,
    val_main_v13_apply, val_main_v12_apply, val_main_v9_apply, val_main_v4_apply, val_main_v3_apply,
    val_main_v2_apply, val_main_v1_apply, val_main_v0_apply, val_main_cst_apply, val_main_v8_apply,
    val_main_v7_apply, val_main_v6_apply, val_main_v5_apply, val_main_cst_0_apply, val_main_v11_apply,
    val_main_v10_apply, row_v3, row_v11]
  rfl

/-- The reference's new facilitation state at (p, q) is the specification's. -/
theorem synU_eq (x1 x3 : (⟨S4096x2048, .f32⟩ : BufTy).Contents (Elt Ideal))
    (x9 x11 x12 : (⟨S2048, .f32⟩ : BufTy).Contents (Elt Ideal)) (p : Fin 4096) (q : Fin 2048) :
    val_main_v34 (F := Ideal) x1 x3 x9 x11 x12 (ix2 p q) = Cert.Spec.SynU x1 x3 x9 x11 x12 p q := by
  simp only [val_main_v34_apply, val_main_call1_v4_apply, val_main_call1_v3_apply, val_main_cst_6_apply,
    val_main_call1_v2_apply, val_main_call1_v1_apply, val_main_call1_v0_apply, val_main_cst_5_apply,
    val_main_v32_apply, val_main_v31_apply, val_main_v28_apply, val_main_v19_apply, val_main_v18_apply,
    val_main_v17_apply, val_main_v16_apply, val_main_v15_apply, val_main_v14_apply, val_main_v27_apply,
    val_main_v26_apply, val_main_v25_apply, val_main_v24_apply, val_main_v21_apply, val_main_v20_apply,
    val_main_cst_1_apply, val_main_v23_apply, val_main_v22_apply, val_main_cst_2_apply, val_main_v30_apply,
    val_main_v29_apply, row_v18, row_v15, row_v25, row_v30]
  rfl

/-! ## The new activity -/

/-- The reference's new activity at (p, g) is the specification's: the two contractions are the two sums, the
    left factor of the recurrent one is the presynaptic drive built from the two new synaptic states, and its
    right factor is the sign-constrained, masked weight. -/
theorem hOut_eq (x0 : (⟨S4096x512, .f32⟩ : BufTy).Contents (Elt Ideal))
    (x1 x2 x3 : (⟨S4096x2048, .f32⟩ : BufTy).Contents (Elt Ideal))
    (x4 : (⟨S512x2048, .f32⟩ : BufTy).Contents (Elt Ideal))
    (x5 : (⟨S2048x2048, .f32⟩ : BufTy).Contents (Elt Ideal))
    (x6 x7 : (⟨S2048, .f32⟩ : BufTy).Contents (Elt Ideal))
    (x8 : (⟨S2048x2048, .f32⟩ : BufTy).Contents (Elt Ideal))
    (x9 x10 x11 x12 : (⟨S2048, .f32⟩ : BufTy).Contents (Elt Ideal)) (p : Fin 4096) (g : Fin 2048) :
    val_main_v54 (F := Ideal) x0 x1 x2 x3 x4 x5 x6 x7 x8 x9 x10 x11 x12 (ix2 p g)
      = Cert.Spec.HOut x0 x1 x2 x3 x4 x5 x8 x6 x7 x9 x10 x11 x12 p g := by
  simp only [val_main_v54_apply, val_main_v50_apply, val_main_v49_apply, val_main_cst_7_apply,
    val_main_v53_apply, val_main_v52_apply, val_main_cst_8_apply, val_main_v51_apply,
    val_main_call4_v0_apply, val_main_call4_cst_apply, val_main_v48_apply, val_main_v47_apply,
    val_main_v46_apply, val_main_v45_apply, val_main_v43_apply, val_main_v44_apply, val_main_v42_apply,
    val_main_call3_v0_apply, val_main_call3_cst_apply, val_main_v36_apply, val_main_v35_apply,
    val_main_v41_apply, val_main_v40_apply, val_main_v39_apply, val_main_v37_apply, val_main_v38_apply,
    val_main_call2_v0_apply, val_main_call2_cst_apply, row_v47, lidx_v43, ridx_v43, lidx_v44, ridx_v44,
    col_v39, synX_eq, synU_eq]
  rfl

end Cert.RefSpec

end
-- ==== Proof.Bridge.lean ====
/-
  What the two regions find in the buffers they stage, in terms of the launch memory. An argument is found as launched:
  no host operation writes it and region 0 only reads it. The cell region finds, beside the arguments, the rectified input
  weights (written by the first two stretches of host operations and untouched since), region 0's result, and the packed
  parameters (written by the third stretch from arguments nothing has touched).
-/
import proofs.«151164_j20787641712912_2_alg».proof.Proof.KernelIdeal.Run
import proofs.«151164_j20787641712912_2_alg».proof.Proof.Blocks0
import proofs.«151164_j20787641712912_2_alg».proof.Proof.Blocks1
import proofs.«151164_j20787641712912_2_alg».proof.Proof.HostVals
import proofs.«151164_j20787641712912_2_alg».proof.Proof.RefSpec

set_option maxRecDepth 16384

noncomputable section

namespace Cert.KernelIdeal.Bridge

open Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

variable {F : FTy → Type} [FloatOps F]
variable (m : (ℓ : Loc nD τ sig) → Buf (Elt F) ℓ) (ρ : Dev nD → PrngReg) (c : Dev nD)

/-- A buffer the first two stretches of host operations do not write is, at region 0's entry, as launched. -/
theorem W2_of (r : Ref sig .tc) (h0 : r ∉ hostOps0_W) (h1 : r ∉ hostOps0_1_W) :
    W2 m ρ c (Proc.devRef .tc r) = m ((c : Thread nD τ).loc r) :=
  (StableHlo.after_of_writes_sub hostOps0_1 _ hostOps0_1_writes h1).trans
    ((StableHlo.after_of_writes_sub hostOps0 _ hostOps0_writes h0).trans rfl)

/-- … and still so after region 0, if it is none of region 0's arrays, -/
theorem W3_of (r : Ref sig .tc) (h0 : r ∉ hostOps0_W) (h1 : r ∉ hostOps0_1_W) (hb : ∀ w, Pipeline.arrRef spec0 w ≠ r) :
    W3 m ρ c (Proc.devRef .tc r) = m ((c : Thread nD τ).loc r) :=
  (W3_of_ne m ρ c r hb).trans (W2_of m ρ c r h0 h1)

/-- … and at the cell region's entry, if the third stretch does not write it either. -/
theorem W4_of (r : Ref sig .tc) (h0 : r ∉ hostOps0_W) (h1 : r ∉ hostOps0_1_W) (hb : ∀ w, Pipeline.arrRef spec0 w ≠ r)
    (h2 : r ∉ hostOps1_W) : W4 m ρ c (Proc.devRef .tc r) = m ((c : Thread nD τ).loc r) :=
  (StableHlo.after_of_writes_sub hostOps1 _ hostOps1_writes h2).trans (W3_of m ρ c r h0 h1 hb)

/-- Region 0 finds the recurrent weights and the mask as launched. -/
theorem U2_arg5 : U2 m ρ c main_arg5 = m ((c : Thread nD τ).loc main_arg5) := W2_of m ρ c main_arg5 (by decide) (by decide)
theorem U2_arg8 : U2 m ρ c main_arg8 = m ((c : Thread nD τ).loc main_arg8) := W2_of m ρ c main_arg8 (by decide) (by decide)

/-- The cell region finds the input, the activity and the two synaptic states as launched. -/
theorem U4_arg0 : U4 m ρ c main_arg0 = m ((c : Thread nD τ).loc main_arg0) := W4_of m ρ c main_arg0 (by decide) (by decide) (by decide) (by decide)
theorem U4_arg1 : U4 m ρ c main_arg1 = m ((c : Thread nD τ).loc main_arg1) := W4_of m ρ c main_arg1 (by decide) (by decide) (by decide) (by decide)
theorem U4_arg2 : U4 m ρ c main_arg2 = m ((c : Thread nD τ).loc main_arg2) := W4_of m ρ c main_arg2 (by decide) (by decide) (by decide) (by decide)
theorem U4_arg3 : U4 m ρ c main_arg3 = m ((c : Thread nD τ).loc main_arg3) := W4_of m ρ c main_arg3 (by decide) (by decide) (by decide) (by decide)

/-- The per-unit vectors the third stretch packs are, when it runs, as launched. -/
theorem W3_arg6 : W3 m ρ c (Proc.devRef .tc main_arg6) = m ((c : Thread nD τ).loc main_arg6) := W3_of m ρ c main_arg6 (by decide) (by decide) (by decide)
theorem W3_arg9 : W3 m ρ c (Proc.devRef .tc main_arg9) = m ((c : Thread nD τ).loc main_arg9) := W3_of m ρ c main_arg9 (by decide) (by decide) (by decide)
theorem W3_arg10 : W3 m ρ c (Proc.devRef .tc main_arg10) = m ((c : Thread nD τ).loc main_arg10) := W3_of m ρ c main_arg10 (by decide) (by decide) (by decide)
theorem W3_arg11 : W3 m ρ c (Proc.devRef .tc main_arg11) = m ((c : Thread nD τ).loc main_arg11) := W3_of m ρ c main_arg11 (by decide) (by decide) (by decide)
theorem W3_arg12 : W3 m ρ c (Proc.devRef .tc main_arg12) = m ((c : Thread nD τ).loc main_arg12) := W3_of m ρ c main_arg12 (by decide) (by decide) (by decide)

/-- The cell region finds region 0's result where region 0 left it: the third stretch does not write it. -/
theorem U4_v3 : U4 m ρ c main_v3 = (dat0 (U2 m ρ) c).arrAt 3 cfg0.N :=
  (StableHlo.after_of_writes_sub hostOps1 _ hostOps1_writes (by decide : main_v3 ∉ hostOps1_W)).trans (W3_arr m ρ c 3)

/-- … and the rectified input weights where the second stretch left them. -/
theorem U4_v1 : U4 m ρ c main_v1 = W2 m ρ c (Proc.devRef .tc main_v1) :=
  (StableHlo.after_of_writes_sub hostOps1 _ hostOps1_writes (by decide : main_v1 ∉ hostOps1_W)).trans (W3_of_ne m ρ c main_v1 (by decide))

/-! ## At the extended reals: the entries of what the cell region finds -/

section AtIdeal

variable (m : (ℓ : Loc nD τ sig) → Buf (Elt Ideal) ℓ) (ρ : Dev nD → PrngReg) (c : Dev nD)

/-- Row `j` of the packed parameters is the `j`-th packed vector: bias, the two rates, the baseline, the switch. -/
theorem P_row0 (q : Fin 2048) : (U4 m ρ c main_v13 : S8x2048.Idx → EReal) (ix2 (0 : Fin 8) q) = ((m ((c : Thread nD τ).loc main_arg6)) : S2048.Idx → EReal) (ix1 q) :=
  (Cert.KernelIdeal.HostVals.v13_row0 (W3 m ρ c) q).trans (congrFun (W3_arg6 m ρ c) (ix1 q))
theorem P_row1 (q : Fin 2048) : (U4 m ρ c main_v13 : S8x2048.Idx → EReal) (ix2 (1 : Fin 8) q) = ((m ((c : Thread nD τ).loc main_arg9)) : S2048.Idx → EReal) (ix1 q) :=
  (Cert.KernelIdeal.HostVals.v13_row1 (W3 m ρ c) q).trans (congrFun (W3_arg9 m ρ c) (ix1 q))
theorem P_row2 (q : Fin 2048) : (U4 m ρ c main_v13 : S8x2048.Idx → EReal) (ix2 (2 : Fin 8) q) = ((m ((c : Thread nD τ).loc main_arg10)) : S2048.Idx → EReal) (ix1 q) :=
  (Cert.KernelIdeal.HostVals.v13_row2 (W3 m ρ c) q).trans (congrFun (W3_arg10 m ρ c) (ix1 q))
theorem P_row3 (q : Fin 2048) : (U4 m ρ c main_v13 : S8x2048.Idx → EReal) (ix2 (3 : Fin 8) q) = ((m ((c : Thread nD τ).loc main_arg11)) : S2048.Idx → EReal) (ix1 q) :=
  (Cert.KernelIdeal.HostVals.v13_row3 (W3 m ρ c) q).trans (congrFun (W3_arg11 m ρ c) (ix1 q))
theorem P_row4 (q : Fin 2048) : (U4 m ρ c main_v13 : S8x2048.Idx → EReal) (ix2 (4 : Fin 8) q) = ((m ((c : Thread nD τ).loc main_arg12)) : S2048.Idx → EReal) (ix1 q) :=
  (Cert.KernelIdeal.HostVals.v13_row4 (W3 m ρ c) q).trans (congrFun (W3_arg12 m ρ c) (ix1 q))

/-- The rectified input weights, entry by entry. -/
theorem v1_entry (k : Fin 512) (g : Fin 2048) : (U4 m ρ c main_v1 : S512x2048.Idx → EReal) (ix2 k g)
    = @max EReal _ (((m ((c : Thread nD τ).loc main_arg4)) : S512x2048.Idx → EReal) (ix2 k g)) Cert.Spec.c0 :=
  (congrFun (U4_v1 m ρ c) (ix2 k g)).trans (Cert.KernelIdeal.HostVals.v1_apply (W0 m ρ c) k g)

/-- The prepared recurrent weights, entry by entry: region 0's result, of the weights, the mask and the sign vector. -/
theorem v3_entry (k g : Fin 2048) : (U4 m ρ c main_v3 : S2048x2048.Idx → EReal) (ix2 k g)
    = Cert.Spec.effW (((m ((c : Thread nD τ).loc main_arg5)) : S2048x2048.Idx → EReal) (ix2 k g)) (((m ((c : Thread nD τ).loc main_arg7)) : S2048.Idx → EReal) (ix1 k)) (((m ((c : Thread nD τ).loc main_arg8)) : S2048x2048.Idx → EReal) (ix2 k g)) := by
  rw [U4_v3, Cert.KernelIdeal.Blocks0.final3]
  show Cert.Spec.effW (U2 m ρ c main_arg5 (ix2 k g)) ((U2 m ρ c main_v2 : S2048x1.Idx → EReal) (ix2 k (0 : Fin 1))) (U2 m ρ c main_arg8 (ix2 k g)) = _
  rw [U2_arg5, U2_arg8]
  exact congrArg (fun e => Cert.Spec.effW _ e _) (Cert.KernelIdeal.HostVals.v2_apply (W0 m ρ c) k)

/-! ## The three results are the reference's stages -/

/-- The new depression state. -/
theorem result8 : (dat1 (U4 m ρ) c).arrAt 8 cfg1.N
    = Cert.ReferenceIdeal.Read.val_main_v33 (F := Ideal) (m ((c : Thread nD τ).loc main_arg1)) (m ((c : Thread nD τ).loc main_arg2)) (m ((c : Thread nD τ).loc main_arg3)) (m ((c : Thread nD τ).loc main_arg10)) (m ((c : Thread nD τ).loc main_arg12)) := by
  rw [Cert.KernelIdeal.Blocks1.final8]
  funext j
  obtain ⟨p, q, rfl⟩ : ∃ (p : Fin 4096) (q : Fin 2048), j = ix2 p q := ⟨j 0, j 1, eq_ix2 j⟩
  refine Eq.trans ?_ (Cert.RefSpec.synX_eq _ _ _ _ _ p q).symm
  show Cert.Spec.synX (U4 m ρ c main_arg1 (ix2 p q)) (U4 m ρ c main_arg2 (ix2 p q)) (U4 m ρ c main_arg3 (ix2 p q))
      ((U4 m ρ c main_v13 : S8x2048.Idx → EReal) (ix2 (2 : Fin 8) q)) ((U4 m ρ c main_v13 : S8x2048.Idx → EReal) (ix2 (4 : Fin 8) q))
    = Cert.Spec.synX ((m ((c : Thread nD τ).loc main_arg1)) (ix2 p q)) ((m ((c : Thread nD τ).loc main_arg2)) (ix2 p q)) ((m ((c : Thread nD τ).loc main_arg3)) (ix2 p q)) (((m ((c : Thread nD τ).loc main_arg10)) : S2048.Idx → EReal) (ix1 q)) (((m ((c : Thread nD τ).loc main_arg12)) : S2048.Idx → EReal) (ix1 q))
  rw [U4_arg1, U4_arg2, U4_arg3, P_row2, P_row4]

/-- The new facilitation state. -/
theorem result9 : (dat1 (U4 m ρ) c).arrAt 9 cfg1.N
    = Cert.ReferenceIdeal.Read.val_main_v34 (F := Ideal) (m ((c : Thread nD τ).loc main_arg1)) (m ((c : Thread nD τ).loc main_arg3)) (m ((c : Thread nD τ).loc main_arg9)) (m ((c : Thread nD τ).loc main_arg11)) (m ((c : Thread nD τ).loc main_arg12)) := by
  rw [Cert.KernelIdeal.Blocks1.final9]
  funext j
  obtain ⟨p, q, rfl⟩ : ∃ (p : Fin 4096) (q : Fin 2048), j = ix2 p q := ⟨j 0, j 1, eq_ix2 j⟩
  refine Eq.trans ?_ (Cert.RefSpec.synU_eq _ _ _ _ _ p q).symm
  show Cert.Spec.synU (U4 m ρ c main_arg1 (ix2 p q)) (U4 m ρ c main_arg3 (ix2 p q))
      ((U4 m ρ c main_v13 : S8x2048.Idx → EReal) (ix2 (1 : Fin 8) q)) ((U4 m ρ c main_v13 : S8x2048.Idx → EReal) (ix2 (3 : Fin 8) q)) ((U4 m ρ c main_v13 : S8x2048.Idx → EReal) (ix2 (4 : Fin 8) q))
    = Cert.Spec.synU ((m ((c : Thread nD τ).loc main_arg1)) (ix2 p q)) ((m ((c : Thread nD τ).loc main_arg3)) (ix2 p q)) (((m ((c : Thread nD τ).loc main_arg9)) : S2048.Idx → EReal) (ix1 q)) (((m ((c : Thread nD τ).loc main_arg11)) : S2048.Idx → EReal) (ix1 q)) (((m ((c : Thread nD τ).loc main_arg12)) : S2048.Idx → EReal) (ix1 q))
  rw [U4_arg1, U4_arg3, P_row1, P_row3, P_row4]

set_option maxHeartbeats 1000000 in
/-- The new activity: the two sums are term by term the reference's. -/
theorem result7 : (dat1 (U4 m ρ) c).arrAt 7 cfg1.N
    = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Cert.KernelIdeal.Blocks1.final7]
  funext j
  obtain ⟨p, g, rfl⟩ : ∃ (p : Fin 4096) (g : Fin 2048), j = ix2 p g := ⟨j 0, j 1, eq_ix2 j⟩
  refine Eq.trans ?_ (Cert.RefSpec.hOut_eq _ _ _ _ _ _ _ _ _ _ _ _ _ p g).symm
  have hrow : Cert.KernelIdeal.Blocks1.row (ix2 p g) = p := rfl
  have hcol : Cert.KernelIdeal.Blocks1.col (ix2 p g) = g := rfl
  unfold Cert.KernelIdeal.Blocks1.HOutArr Cert.Spec.HOut Cert.Spec.Pre Cert.Spec.Post Cert.Spec.SynU Cert.Spec.SynX Cert.Spec.EffW
  simp only [hrow, hcol, U4_arg0 m ρ c, U4_arg1 m ρ c, U4_arg2 m ρ c, U4_arg3 m ρ c, v1_entry m ρ c, v3_entry m ρ c,
    P_row0 m ρ c, P_row1 m ρ c, P_row2 m ρ c, P_row3 m ρ c, P_row4 m ρ c]

end AtIdeal

end Cert.KernelIdeal.Bridge

end
-- ==== Proof.lean ====
/-
  The certificate of the short-term-plasticity recurrent cell.

  The kernel program runs two regions around host operations: a preparation of the recurrent weights (the mask times the
  sign of the presynaptic unit times the rectified weight, eight row blocks), and the cell itself (sixteen batch blocks):
  the two synaptic states move and are clamped into [0, 1], the presynaptic drive goes through the prepared weights beside
  the input through the rectified input weights, the bias is added, and the new activity is the blend
  0.8 h + 0.2 max(pre, 0). The reference computes the same three arrays with whole-array host operations.

  FRAMES. Each region is a pipeline whose body loads whole blocks, computes, and stores whole blocks; its proof data says
  what every staging buffer holds after the body at every grid point, and the launch theorem for a list of host stretches
  and regions gives the run: every unscoped buffer ends at the last boundary's contents, so each argument, which nothing
  writes, ends as launched. The same text serves the word-level program and the idealized one. The reference has no
  kernel: its frame is its run with the results dropped.

  VALUES, on the extended reals. Block t of each result array is what grid point t writes back, and the blocks tile the
  arrays, so each result is ONE function of the arrays the region found; those are the arguments, the rectified input
  weights, the prepared recurrent weights (region 0's result) and the packed per-unit parameters (a concatenation of
  rows). Entry by entry that function and the reference's term are the same expression in the same order; the only step
  that is not a reading of definitions is that a matrix product accumulated from zero is the plain sum over the
  contracted axis. No law needs finiteness: the precondition is never opened.
-/
import proofs.«151164_j20787641712912_2_alg».proof.Defs
import proofs.«151164_j20787641712912_2_alg».proof.Proof.Gen.Kernel
import proofs.«151164_j20787641712912_2_alg».proof.Proof.Gen.KernelIdeal
import proofs.«151164_j20787641712912_2_alg».proof.Proof.Gen.ReferenceIdeal
import proofs.«151164_j20787641712912_2_alg».proof.Proof.Gen.ReferenceIdeal.Run
import proofs.«151164_j20787641712912_2_alg».proof.Proof.Gen.ReferenceIdeal.Read
import proofs.«151164_j20787641712912_2_alg».proof.Proof.Gen.Pre_finite_inputs
import proofs.«151164_j20787641712912_2_alg».proof.Proof.Kernel.Run
import proofs.«151164_j20787641712912_2_alg».proof.Proof.KernelIdeal.Run
import proofs.«151164_j20787641712912_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_p : Cert.frame_Kernel := fun m ρ _ => Cert.Kernel.Frame.frame (F := Bits) m ρ

/-- So does the idealized one: the same run, read at the extended reals. -/
theorem frame_pi : Cert.frame_KernelIdeal := fun m ρ _ => Cert.KernelIdeal.Frame.frame (F := Ideal) m ρ

/-- The reference is host operations only: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing: the idealized program is the printed one read at the extended reals. -/
theorem preserves : Cert.preserves_Kernel_KernelIdeal := trivial

/-- At the extended reals the idealized kernel's three result arrays end at what the cell region's write-backs leave, the
    reference's at its stages' terms of arguments that agree, and those are the same arrays entry by entry. -/
theorem algebraic : Cert.algebraic_KernelIdeal_ReferenceIdeal := by
  intro m ρ m' ρ' _ hagree
  refine ⟨fun c => (Cert.KernelIdeal.Frame.dat1 (Cert.KernelIdeal.Frame.U4 m ρ) c).arrAt 7 Cert.KernelIdeal.cfg1.N,
    fun c => (Cert.KernelIdeal.Frame.dat1 (Cert.KernelIdeal.Frame.U4 m ρ) c).arrAt 8 Cert.KernelIdeal.cfg1.N,
    fun c => (Cert.KernelIdeal.Frame.dat1 (Cert.KernelIdeal.Frame.U4 m ρ) c).arrAt 9 Cert.KernelIdeal.cfg1.N,
    Cert.KernelIdeal.Frame.run_results (F := Ideal) m ρ, ?_⟩
  refine (θ_run Cert.ReferenceIdeal.defs _ _).mono (fun r h c => ?_) (Cert.ReferenceIdeal.Value.run (F := Ideal) m' ρ')
  obtain ⟨h54, h33, h34, hargs⟩ := h c
  obtain ⟨a0, a1, a2, a3, a4, a5, a6, a7, a8, a9, a10, a11, a12⟩ := hagree c
  refine ⟨h54.trans ?_, h33.trans ?_, h34.trans ?_, hargs⟩
  · rw [Cert.ReferenceIdeal.Read.val_main_v54_eq, a0, a1, a2, a3, a4, a5, a6, a7, a8, a9, a10, a11, a12]
    exact (Cert.KernelIdeal.Bridge.result7 m ρ c).symm
  · rw [Cert.ReferenceIdeal.Read.val_main_v33_eq, a1, a2, a3, a10, a12]
    exact (Cert.KernelIdeal.Bridge.result8 m ρ c).symm
  · rw [Cert.ReferenceIdeal.Read.val_main_v34_eq, a1, a3, a9, a11, a12]
    exact (Cert.KernelIdeal.Bridge.result9 m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
